-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v123)) (v1 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_arg22 : FVec F S256x256 .f32) (main_arg23 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256x256 .f32 := Host.absf main_arg22
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg23
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg18 : FVec F S256x256 .f32) (main_arg19 : FVec F S256x256 .f32) (main_arg20 : FVec F S256 .f32) (main_arg21 : FVec F S256x256 .f32) (main_arg22 : FVec F S256x256 .f32) (main_arg23 : FVec F S256 .f32) (main_v63 : IVec S_ 1) (main_v67 : IVec S_ 1) : IVec S_ 1 :=
  let main_v68 : IVec S_ 1 := andi main_v63 main_v67
  let main_v69 : FVec F S256x256 .f32 := Host.absf main_arg18
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg19
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg20
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg21
  let main_cst_32 : FVec F S_ .f32 := constant S_ .f32 0x7F800000#32
  fn_part5 (F := F) main_arg22 main_arg23 main_v83 main_v84 main_cst_32

def fn_part3 {F : FTy → Type} [FloatOps F] (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x256 .f32) (main_arg22 : FVec F S256x256 .f32) (main_arg23 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg16
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg17
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg18 main_arg19 main_arg20 main_arg21 main_arg22 main_arg23 main_v63 main_v67

def fn_part2 {F : FTy → Type} [FloatOps F] (main_arg11 : FVec F S256 .f32) (main_arg12 : FVec F S128x256 .f32) (main_arg13 : FVec F S128x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x256 .f32) (main_arg22 : FVec F S256x256 .f32) (main_arg23 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg12
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128x256 .f32 := Host.absf main_arg13
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_arg17 main_arg18 main_arg19 main_arg20 main_arg21 main_arg22 main_arg23 main_v48 main_v49 main_v50

def fn_part1 {F : FTy → Type} [FloatOps F] (main_arg8 : FVec F S256 .f32) (main_arg9 : FVec F S128x256 .f32) (main_arg10 : FVec F S128x256 .f32) (main_arg11 : FVec F S256 .f32) (main_arg12 : FVec F S128x256 .f32) (main_arg13 : FVec F S128x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x256 .f32) (main_arg22 : FVec F S256x256 .f32) (main_arg23 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg10
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_v33

def fn {F : FTy → Type} [FloatOps F] (main_arg0 : FVec F S100000x128 .f32) (main_arg1 : FVec F S100000x128 .f32) (main_arg2 : IVec S500000 32) (main_arg3 : IVec S500000 32) (main_arg4 : IVec S500000 32) (main_arg5 : IVec S500000 32) (main_arg6 : FVec F S128x256 .f32) (main_arg7 : FVec F S128x256 .f32) (main_arg8 : FVec F S256 .f32) (main_arg9 : FVec F S128x256 .f32) (main_arg10 : FVec F S128x256 .f32) (main_arg11 : FVec F S256 .f32) (main_arg12 : FVec F S128x256 .f32) (main_arg13 : FVec F S128x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x256 .f32) (main_arg22 : FVec F S256x256 .f32) (main_arg23 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg7
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x128 : Shape := ⟨2, ![100000, 128]⟩
abbrev S500000 : Shape := ⟨1, ![500000]⟩
abbrev S128x256 : Shape := ⟨2, ![128, 256]⟩
abbrev S256 : Shape := ⟨1, ![256]⟩
abbrev S256x256 : Shape := ⟨2, ![256, 256]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S500000x256 : Shape := ⟨2, ![500000, 256]⟩

abbrev nBuf : Space → Nat
  | .hbm => 184
  | .vmem => 46
  | .smem => 0
  | _ => 0

abbrev hbmTy0_0 (i : Nat) : BufTy := match i % 128 with
  | 0 => ⟨S100000x128, .f32⟩
  | 1 => ⟨S100000x128, .f32⟩
  | 2 => ⟨S500000, .i32⟩
  | 3 => ⟨S500000, .i32⟩
  | 4 => ⟨S500000, .i32⟩
  | 5 => ⟨S500000, .i32⟩
  | 6 => ⟨S128x256, .f32⟩
  | 7 => ⟨S128x256, .f32⟩
  | 8 => ⟨S256, .f32⟩
  | 9 => ⟨S128x256, .f32⟩
  | 10 => ⟨S128x256, .f32⟩
  | 11 => ⟨S256, .f32⟩
  | 12 => ⟨S128x256, .f32⟩
  | 13 => ⟨S128x256, .f32⟩
  | 14 => ⟨S256, .f32⟩
  | 15 => ⟨S256x256, .f32⟩
  | 16 => ⟨S256x256, .f32⟩
  | 17 => ⟨S256, .f32⟩
  | 18 => ⟨S256x256, .f32⟩
  | 19 => ⟨S256x256, .f32⟩
  | 20 => ⟨S256, .f32⟩
  | 21 => ⟨S256x256, .f32⟩
  | 22 => ⟨S256x256, .f32⟩
  | 23 => ⟨S256, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S_, .f32⟩
  | 34 => ⟨S100000x128, .f32⟩
  | 35 => ⟨S500000x1, .i32⟩
  | 36 => ⟨S100000x128, .f32⟩
  | 37 => ⟨S_, .f32⟩
  | 38 => ⟨S500000, .f32⟩
  | 39 => ⟨S_, .f32⟩
  | 40 => ⟨S100000, .f32⟩
  | 41 => ⟨S500000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S100000x128, .f32⟩
  | 60 => ⟨S500000x1, .i32⟩
  | 61 => ⟨S100000x128, .f32⟩
  | 62 => ⟨S_, .f32⟩
  | 63 => ⟨S500000, .f32⟩
  | 64 => ⟨S_, .f32⟩
  | 65 => ⟨S100000, .f32⟩
  | 66 => ⟨S500000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000x128, .f32⟩
  | 83 => ⟨S_, .f32⟩
  | 84 => ⟨S100000x128, .f32⟩
  | 85 => ⟨S500000x1, .i32⟩
  | 86 => ⟨S100000x128, .f32⟩
  | 87 => ⟨S_, .f32⟩
  | 88 => ⟨S500000, .f32⟩
  | 89 => ⟨S_, .f32⟩
  | 90 => ⟨S100000, .f32⟩
  | 91 => ⟨S500000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x128, .f32⟩
  | 98 => ⟨S100000x128, .f32⟩
  | 99 => ⟨S1x256, .f32⟩
  | 100 => ⟨S1x256, .f32⟩
  | 101 => ⟨S100000x256, .f32⟩
  | 102 => ⟨S1x256, .f32⟩
  | 103 => ⟨S100000x256, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x256, .f32⟩
  | 113 => ⟨S_, .f32⟩
  | 114 => ⟨S100000x256, .f32⟩
  | 115 => ⟨S500000x1, .i32⟩
  | 116 => ⟨S100000x256, .f32⟩
  | 117 => ⟨S_, .f32⟩
  | 118 => ⟨S500000, .f32⟩
  | 119 => ⟨S_, .f32⟩
  | 120 => ⟨S100000, .f32⟩
  | 121 => ⟨S500000x1, .i32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x256, .f32⟩
  | _ => ⟨S100000x128, .f32⟩

abbrev hbmTy0_1 (i : Nat) : BufTy := match i % 128 with
  | 0 => ⟨S100000x256, .f32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x256, .f32⟩
  | 10 => ⟨S_, .f32⟩
  | 11 => ⟨S100000x256, .f32⟩
  | 12 => ⟨S500000x1, .i32⟩
  | 13 => ⟨S100000x256, .f32⟩
  | 14 => ⟨S_, .f32⟩
  | 15 => ⟨S500000, .f32⟩
  | 16 => ⟨S_, .f32⟩
  | 17 => ⟨S100000, .f32⟩
  | 18 => ⟨S500000x1, .i32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x256, .f32⟩
  | 25 => ⟨S100000x256, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x256, .f32⟩
  | 35 => ⟨S_, .f32⟩
  | 36 => ⟨S100000x256, .f32⟩
  | 37 => ⟨S500000x1, .i32⟩
  | 38 => ⟨S100000x256, .f32⟩
  | 39 => ⟨S_, .f32⟩
  | 40 => ⟨S500000, .f32⟩
  | 41 => ⟨S_, .f32⟩
  | 42 => ⟨S100000, .f32⟩
  | 43 => ⟨S500000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x256, .f32⟩
  | 50 => ⟨S100000x256, .f32⟩
  | 51 => ⟨S1x256, .f32⟩
  | 52 => ⟨S1x256, .f32⟩
  | 53 => ⟨S100000x256, .f32⟩
  | 54 => ⟨S1x256, .f32⟩
  | 55 => ⟨S100000x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x256, .f32⟩
  | .local _ .vmem, ⟨19, _⟩ => ⟨S128x256, .f32⟩
  | .local _ .vmem, ⟨20, _⟩ => ⟨S1x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S1x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S256x256, .f32⟩
  | .local _ .vmem, ⟨42, _⟩ => ⟨S256x256, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_c_5 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_7 : Ref sig .tc := ⟨.hbm, 62, rfl⟩
abbrev main_v29 : Ref sig .tc := ⟨.hbm, 63, rfl⟩
abbrev main_cst_8 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_9 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_10 : Ref sig .tc := ⟨.hbm, 74, rfl⟩
abbrev main_v38 : Ref sig .tc := ⟨.hbm, 75, rfl⟩
abbrev main_v39 : Ref sig .tc := ⟨.hbm, 76, rfl⟩
abbrev main_c_11 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_12 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_13 : Ref sig .tc := ⟨.hbm, 87, rfl⟩
abbrev main_v48 : Ref sig .tc := ⟨.hbm, 88, rfl⟩
abbrev main_cst_14 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_15 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_16 : Ref sig .tc := ⟨.hbm, 104, rfl⟩
abbrev main_v62 : Ref sig .tc := ⟨.hbm, 105, rfl⟩
abbrev main_v63 : Ref sig .tc := ⟨.hbm, 106, rfl⟩
abbrev main_c_17 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_18 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_19 : Ref sig .tc := ⟨.hbm, 117, rfl⟩
abbrev main_v72 : Ref sig .tc := ⟨.hbm, 118, rfl⟩
abbrev main_cst_20 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_21 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_22 : Ref sig .tc := ⟨.hbm, 129, rfl⟩
abbrev main_v81 : Ref sig .tc := ⟨.hbm, 130, rfl⟩
abbrev main_v82 : Ref sig .tc := ⟨.hbm, 131, rfl⟩
abbrev main_c_23 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_24 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_25 : Ref sig .tc := ⟨.hbm, 142, rfl⟩
abbrev main_v91 : Ref sig .tc := ⟨.hbm, 143, rfl⟩
abbrev main_cst_26 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_27 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_28 : Ref sig .tc := ⟨.hbm, 154, rfl⟩
abbrev main_v100 : Ref sig .tc := ⟨.hbm, 155, rfl⟩
abbrev main_v101 : Ref sig .tc := ⟨.hbm, 156, rfl⟩
abbrev main_c_29 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_30 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_31 : Ref sig .tc := ⟨.hbm, 167, rfl⟩
abbrev main_v110 : Ref sig .tc := ⟨.hbm, 168, rfl⟩
abbrev main_cst_32 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_33 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S2000x128_S128x256_S2000x256_1_0_0_1_n_n_wf : DotDims.WF S2000x128 S128x256 S2000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S100000x256.size a
  hwx0_9 : ∀ i : grid0.Coords, EltTy.bits .f32 = 32 ∨ (Rect.block (s := S100000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x256.size a ≤ S100000x256.size a
  hwx2_9 : ∀ i : grid2.Coords, EltTy.bits .f32 = 32 ∨ (Rect.block (s := S100000x256) S2000x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v58) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v59) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v56) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v80) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v99) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg21) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg22) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v119) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v120) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v121) S2000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v118) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg18) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg19) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v122) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v123) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S500000 : Shape := ⟨1, ![500000]⟩
abbrev S128x256 : Shape := ⟨2, ![128, 256]⟩
abbrev S256 : Shape := ⟨1, ![256]⟩
abbrev S256x256 : Shape := ⟨2, ![256, 256]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S500000x256 : Shape := ⟨2, ![500000, 256]⟩

abbrev nBuf : Space → Nat
  | .hbm => 218
  | .vmem => 0
  | .smem => 0
  | _ => 0

abbrev hbmTy0_0 (i : Nat) : BufTy := match i % 128 with
  | 0 => ⟨S100000x128, .f32⟩
  | 1 => ⟨S100000x128, .f32⟩
  | 2 => ⟨S500000, .i32⟩
  | 3 => ⟨S500000, .i32⟩
  | 4 => ⟨S500000, .i32⟩
  | 5 => ⟨S500000, .i32⟩
  | 6 => ⟨S128x256, .f32⟩
  | 7 => ⟨S128x256, .f32⟩
  | 8 => ⟨S256, .f32⟩
  | 9 => ⟨S128x256, .f32⟩
  | 10 => ⟨S128x256, .f32⟩
  | 11 => ⟨S256, .f32⟩
  | 12 => ⟨S128x256, .f32⟩
  | 13 => ⟨S128x256, .f32⟩
  | 14 => ⟨S256, .f32⟩
  | 15 => ⟨S256x256, .f32⟩
  | 16 => ⟨S256x256, .f32⟩
  | 17 => ⟨S256, .f32⟩
  | 18 => ⟨S256x256, .f32⟩
  | 19 => ⟨S256x256, .f32⟩
  | 20 => ⟨S256, .f32⟩
  | 21 => ⟨S256x256, .f32⟩
  | 22 => ⟨S256x256, .f32⟩
  | 23 => ⟨S256, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S_, .f32⟩
  | 34 => ⟨S100000x128, .f32⟩
  | 35 => ⟨S500000x1, .i32⟩
  | 36 => ⟨S100000x128, .f32⟩
  | 37 => ⟨S_, .f32⟩
  | 38 => ⟨S500000, .f32⟩
  | 39 => ⟨S_, .f32⟩
  | 40 => ⟨S100000, .f32⟩
  | 41 => ⟨S500000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S100000x256, .f32⟩
  | 50 => ⟨S1x256, .f32⟩
  | 51 => ⟨S100000x256, .f32⟩
  | 52 => ⟨S100000x256, .f32⟩
  | 53 => ⟨S100000x256, .f32⟩
  | 54 => ⟨S100000x256, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S100000x128, .f32⟩
  | 66 => ⟨S500000x1, .i32⟩
  | 67 => ⟨S100000x128, .f32⟩
  | 68 => ⟨S_, .f32⟩
  | 69 => ⟨S500000, .f32⟩
  | 70 => ⟨S_, .f32⟩
  | 71 => ⟨S100000, .f32⟩
  | 72 => ⟨S500000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S100000x256, .f32⟩
  | 81 => ⟨S1x256, .f32⟩
  | 82 => ⟨S100000x256, .f32⟩
  | 83 => ⟨S100000x256, .f32⟩
  | 84 => ⟨S100000x256, .f32⟩
  | 85 => ⟨S100000x256, .f32⟩
  | 86 => ⟨S100000x256, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S_, .f32⟩
  | 97 => ⟨S100000x128, .f32⟩
  | 98 => ⟨S500000x1, .i32⟩
  | 99 => ⟨S100000x128, .f32⟩
  | 100 => ⟨S_, .f32⟩
  | 101 => ⟨S500000, .f32⟩
  | 102 => ⟨S_, .f32⟩
  | 103 => ⟨S100000, .f32⟩
  | 104 => ⟨S500000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x256, .f32⟩
  | 113 => ⟨S1x256, .f32⟩
  | 114 => ⟨S100000x256, .f32⟩
  | 115 => ⟨S100000x256, .f32⟩
  | 116 => ⟨S100000x256, .f32⟩
  | 117 => ⟨S100000x256, .f32⟩
  | 118 => ⟨S_, .f32⟩
  | 119 => ⟨S100000x256, .f32⟩
  | 120 => ⟨S100000x256, .f32⟩
  | 121 => ⟨S_, .f32⟩
  | 122 => ⟨S100000x256, .f32⟩
  | 123 => ⟨S100000x256, .f32⟩
  | 124 => ⟨S_, .i32⟩
  | 125 => ⟨S500000, .i32⟩
  | 126 => ⟨S500000, .i1⟩
  | 127 => ⟨S_, .i32⟩
  | _ => ⟨S100000x128, .f32⟩

abbrev hbmTy0_1 (i : Nat) : BufTy := match i % 128 with
  | 0 => ⟨S500000, .i32⟩
  | 1 => ⟨S500000, .i32⟩
  | 2 => ⟨S500000, .i32⟩
  | 3 => ⟨S500000x1, .i32⟩
  | 4 => ⟨S500000x256, .f32⟩
  | 5 => ⟨S_, .f32⟩
  | 6 => ⟨S100000x256, .f32⟩
  | 7 => ⟨S500000x1, .i32⟩
  | 8 => ⟨S100000x256, .f32⟩
  | 9 => ⟨S_, .f32⟩
  | 10 => ⟨S500000, .f32⟩
  | 11 => ⟨S_, .f32⟩
  | 12 => ⟨S100000, .f32⟩
  | 13 => ⟨S500000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x256, .f32⟩
  | 20 => ⟨S100000x256, .f32⟩
  | 21 => ⟨S100000x256, .f32⟩
  | 22 => ⟨S1x256, .f32⟩
  | 23 => ⟨S100000x256, .f32⟩
  | 24 => ⟨S100000x256, .f32⟩
  | 25 => ⟨S100000x256, .f32⟩
  | 26 => ⟨S100000x256, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x256, .f32⟩
  | 36 => ⟨S_, .f32⟩
  | 37 => ⟨S100000x256, .f32⟩
  | 38 => ⟨S500000x1, .i32⟩
  | 39 => ⟨S100000x256, .f32⟩
  | 40 => ⟨S_, .f32⟩
  | 41 => ⟨S500000, .f32⟩
  | 42 => ⟨S_, .f32⟩
  | 43 => ⟨S100000, .f32⟩
  | 44 => ⟨S500000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x256, .f32⟩
  | 51 => ⟨S100000x256, .f32⟩
  | 52 => ⟨S100000x256, .f32⟩
  | 53 => ⟨S1x256, .f32⟩
  | 54 => ⟨S100000x256, .f32⟩
  | 55 => ⟨S100000x256, .f32⟩
  | 56 => ⟨S100000x256, .f32⟩
  | 57 => ⟨S100000x256, .f32⟩
  | 58 => ⟨S100000x256, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x256, .f32⟩
  | 68 => ⟨S_, .f32⟩
  | 69 => ⟨S100000x256, .f32⟩
  | 70 => ⟨S500000x1, .i32⟩
  | 71 => ⟨S100000x256, .f32⟩
  | 72 => ⟨S_, .f32⟩
  | 73 => ⟨S500000, .f32⟩
  | 74 => ⟨S_, .f32⟩
  | 75 => ⟨S100000, .f32⟩
  | 76 => ⟨S500000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x256, .f32⟩
  | 83 => ⟨S100000x256, .f32⟩
  | 84 => ⟨S100000x256, .f32⟩
  | 85 => ⟨S1x256, .f32⟩
  | 86 => ⟨S100000x256, .f32⟩
  | 87 => ⟨S100000x256, .f32⟩
  | 88 => ⟨S100000x256, .f32⟩
  | 89 => ⟨S100000x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_cst_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_9 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_10 : Ref sig .tc := ⟨.hbm, 87, rfl⟩
abbrev main_v51 : Ref sig .tc := ⟨.hbm, 88, rfl⟩
abbrev main_v52 : Ref sig .tc := ⟨.hbm, 89, rfl⟩
abbrev main_c_11 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_13 : Ref sig .tc := ⟨.hbm, 100, rfl⟩
abbrev main_v61 : Ref sig .tc := ⟨.hbm, 101, rfl⟩
abbrev main_cst_14 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_15 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_call0_cst : Ref sig .tc := ⟨.hbm, 118, rfl⟩
abbrev main_call0_v0 : Ref sig .tc := ⟨.hbm, 119, rfl⟩
abbrev main_v76 : Ref sig .tc := ⟨.hbm, 120, rfl⟩
abbrev main_call1_cst : Ref sig .tc := ⟨.hbm, 121, rfl⟩
abbrev main_call1_v0 : Ref sig .tc := ⟨.hbm, 122, rfl⟩
abbrev main_v77 : Ref sig .tc := ⟨.hbm, 123, rfl⟩
abbrev main_c_16 : Ref sig .tc := ⟨.hbm, 124, rfl⟩
abbrev main_v78 : Ref sig .tc := ⟨.hbm, 125, rfl⟩
abbrev main_v79 : Ref sig .tc := ⟨.hbm, 126, rfl⟩
abbrev main_c_17 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_18 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_19 : Ref sig .tc := ⟨.hbm, 137, rfl⟩
abbrev main_v88 : Ref sig .tc := ⟨.hbm, 138, rfl⟩
abbrev main_cst_20 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_21 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_22 : Ref sig .tc := ⟨.hbm, 155, rfl⟩
abbrev main_v103 : Ref sig .tc := ⟨.hbm, 156, rfl⟩
abbrev main_v104 : Ref sig .tc := ⟨.hbm, 157, rfl⟩
abbrev main_c_23 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_24 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_25 : Ref sig .tc := ⟨.hbm, 168, rfl⟩
abbrev main_v113 : Ref sig .tc := ⟨.hbm, 169, rfl⟩
abbrev main_cst_26 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_27 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_28 : Ref sig .tc := ⟨.hbm, 187, rfl⟩
abbrev main_v129 : Ref sig .tc := ⟨.hbm, 188, rfl⟩
abbrev main_v130 : Ref sig .tc := ⟨.hbm, 189, rfl⟩
abbrev main_c_29 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_30 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_cst_31 : Ref sig .tc := ⟨.hbm, 200, rfl⟩
abbrev main_v139 : Ref sig .tc := ⟨.hbm, 201, rfl⟩
abbrev main_cst_32 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_33 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x256_S100000x256_1_0_0_1_n_n_wf : DotDims.WF S100000x128 S128x256 S100000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.RunW8.lean ====
import proofs.«150538_j16492674417215_1_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two result buffers are unscoped TensorCore buffers, so the final thread state holds them. -/
theorem mem_v123 : Proc.devRef .tc main_v123 ∈ Pipeline.ucRefs τ sig := Gen.mem_uc main_v123 (by decide)
theorem mem_v121 : Proc.devRef .tc main_v121 ∈ Pipeline.ucRefs τ sig := Gen.mem_uc main_v121 (by decide)

set_option backward.isDefEq.respectTransparency.types false in
/-- The run of the whole program from any memory with zero counters: every weakly fair execution on the
    TensorCores terminates without fault, and in every final state each unscoped buffer of each core holds
    the contents of the last segment boundary, `Gen.W8`. The post-condition is the last thread state read
    against the final memory, kept as it is instead of being weakened to the argument arrays. -/
theorem run_W8 : θ_run defs (onTc (τ := τ) (main (F := F))) ⟨m, fun _ => 0, ρ⟩ (fun r => ∀ c : Dev nD,
      ∀ b ∈ Pipeline.ucRefs τ sig, r.2.mem (((c : Thread nD τ)).1, b) = Gen.W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.HandRun

end
-- ==== Proof.SpecHost.lean ====
/-
  The neighbour mean that both programs compute on the host, named once.  For a feature table `x` (one row per source
  node), a list of edges given by their source and destination node numbers, and 100000 destination nodes, row `d` of
  the result is the sum of the rows `x[src e]` over the edges `e` with `dst e = d`, divided by `max (number of such
  edges) 1`.  A negative source number counts from the end of the table (the comparison, the addition of 100000 and the
  selection).  The sum over edges is the host's scatter-add into a zero table, the count a scatter-add of ones into a zero
  vector.  The kernel's program and the reference apply this one function to the same tables, so the two agree on it
  whatever the edges are.  Also named: a bias vector laid out as a one-row matrix.
-/
import proofs.«150538_j16492674417215_1_alg».proof.Proof.Gen.KernelIdeal

noncomputable section

namespace Cert.KernelIdeal.Spec

open Idealize.ShloMosaic Idealize.ShloMosaic.TcCoe Cert.KernelIdeal Cert.KernelIdeal.Facts₀ Cert.KernelIdeal.Facts

variable {F : FTy → Type} [FloatOps F]

/-- A source node number with a negative one counted from the end, as a one-column index table. -/
def srcCol (src : (⟨S500000, .i32⟩ : BufTy).Contents (Elt F)) : (⟨S500000x1, .i32⟩ : BufTy).Contents (Elt F) :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 100000#32))) src)

/-- `max (number of edges into each node) 1`. -/
def degree (dst : (⟨S500000, .i32⟩ : BufTy).Contents (Elt F)) : (⟨S100000, .f32⟩ : BufTy).Contents (Elt F) :=
  maximumf
    (Host.scatterAdd scatter_S100000_S500000x1_S500000_n_0_0_1
      (broadcastInDim S100000 ![] bcast_S_S100000 (constant S_ .f32 0x00000000#32))
      (broadcastInDim S500000x1 ![0] bcast_S500000_S500000x1_0 dst)
      (broadcastInDim S500000 ![] bcast_S_S500000 (constant S_ .f32 0x3F800000#32)))
    (broadcastInDim S100000 ![] bcast_S_S100000 (constant S_ .f32 0x3F800000#32))

/-- The neighbour mean of a table of 128 features. -/
def mean128 (x : (⟨S100000x128, .f32⟩ : BufTy).Contents (Elt F)) (src dst : (⟨S500000, .i32⟩ : BufTy).Contents (Elt F)) :
    (⟨S100000x128, .f32⟩ : BufTy).Contents (Elt F) :=
  Host.divf
    (Host.scatterAdd scatter_S100000x128_S500000x1_S500000x128_1_0_0_1
      (broadcastInDim S100000x128 ![] bcast_S_S100000x128 (constant S_ .f32 0x00000000#32))
      (broadcastInDim S500000x1 ![0] bcast_S500000_S500000x1_0 dst)
      (Host.gather gather_S100000x128_S500000x1_S500000x128_1_0_n_n_0_1_1128 x (srcCol src)))
    (broadcastInDim S100000x128 ![0, 1] bcast_S100000x1_S100000x128_0_1
      (broadcastInDim S100000x1 ![0] bcast_S100000_S100000x1_0 (degree dst)))

/-- The neighbour mean of a table of 256 features. -/
def mean256 (x : (⟨S100000x256, .f32⟩ : BufTy).Contents (Elt F)) (src dst : (⟨S500000, .i32⟩ : BufTy).Contents (Elt F)) :
    (⟨S100000x256, .f32⟩ : BufTy).Contents (Elt F) :=
  Host.divf
    (Host.scatterAdd scatter_S100000x256_S500000x1_S500000x256_1_0_0_1
      (broadcastInDim S100000x256 ![] bcast_S_S100000x256 (constant S_ .f32 0x00000000#32))
      (broadcastInDim S500000x1 ![0] bcast_S500000_S500000x1_0 dst)
      (Host.gather gather_S100000x256_S500000x1_S500000x256_1_0_n_n_0_1_1256 x (srcCol src)))
    (broadcastInDim S100000x256 ![0, 1] bcast_S100000x1_S100000x256_0_1
      (broadcastInDim S100000x1 ![0] bcast_S100000_S100000x1_0 (degree dst)))

/-- A bias vector as a one-row matrix. -/
def row (b : (⟨S256, .f32⟩ : BufTy).Contents (Elt F)) : (⟨S1x256, .f32⟩ : BufTy).Contents (Elt F) :=
  shapeCast S1x256 b shapeCasts_S256_S1x256

end Cert.KernelIdeal.Spec

end
-- ==== Proof.Walk.lean ====
/-
  What each region finds in its input arrays and what the program leaves in its two result arrays, in terms of the
  launch memory.  The buffer contents at the segment boundaries are a fold through the program: a host stretch
  rewrites the buffers its operations write and a region rewrites its own arrays.  An argument array is written by
  nothing, so at every boundary it is as launched.  A neighbour mean computed on the host is the named function
  `Spec.mean128` / `Spec.mean256` of the table and the two edge-index arrays its operations read, and a bias is
  `Spec.row` of its argument.  The first layer's two tables and the second layer's item table are what regions 0, 1
  and 2 leave in their output arrays (`hItem`, `hUser`, `oItem`); no later operation or region writes them.
-/
import proofs.«150538_j16492674417215_1_alg».proof.Proof.Gen.KernelIdeal.Frame
import proofs.«150538_j16492674417215_1_alg».proof.Proof.SpecHost
import Idealize.ShloMosaic.Lib.StableHlo.Run

set_option maxRecDepth 16384

noncomputable section

namespace Cert.KernelIdeal.Walk

open Idealize.ShloMosaic Idealize.ShloMosaic.TcCoe Idealize.ShloMosaic.Tactic
open Idealize.ShloMosaic.Pipeline (Dat Cfg Window BodyObligation cellOf)
open Cert.KernelIdeal Cert.KernelIdeal.Gen Cert.KernelIdeal.Spec

variable {F : FTy → Type} [FloatOps F]
variable (m : (ℓ : Loc nD τ sig) → Buf (Elt F) ℓ) (ρ : Dev nD → PrngReg) (c : Dev nD)

/-- The first layer's item table: what region 0 leaves in its output array. -/
abbrev hItem := (dat0 (V1 m ρ) c).arrAt 9 cfg0.N
/-- The first layer's user table: what region 1 leaves in its output array. -/
abbrev hUser := (dat1 (V3 m ρ) c).arrAt 5 cfg1.N
/-- The second layer's item table: what region 2 leaves in its output array. -/
abbrev oItem := (dat2 (V5 m ρ) c).arrAt 9 cfg2.N

/-- No operation of the named host stretch writes the buffer read on the left: the stretch leaves it as it was. -/
local macro "no_write " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The argument arrays at each boundary: as launched

No host operation writes an argument, and a region leaves every buffer that is not one of its arrays as it found it. -/

theorem W1_arg0 : W1 m ρ c (Proc.devRef .tc main_arg0) = (m ((c : Thread nD τ).loc main_arg0)) := by
  show StableHlo.after hostOps0 (W0 m ρ c) (Proc.devRef .tc main_arg0) = W0 m ρ c (Proc.devRef .tc main_arg0)
  no_write hostOps0
theorem W1_arg1 : W1 m ρ c (Proc.devRef .tc main_arg1) = (m ((c : Thread nD τ).loc main_arg1)) := by
  show StableHlo.after hostOps0 (W0 m ρ c) (Proc.devRef .tc main_arg1) = W0 m ρ c (Proc.devRef .tc main_arg1)
  no_write hostOps0
theorem W1_arg2 : W1 m ρ c (Proc.devRef .tc main_arg2) = (m ((c : Thread nD τ).loc main_arg2)) := by
  show StableHlo.after hostOps0 (W0 m ρ c) (Proc.devRef .tc main_arg2) = W0 m ρ c (Proc.devRef .tc main_arg2)
  no_write hostOps0
theorem W1_arg3 : W1 m ρ c (Proc.devRef .tc main_arg3) = (m ((c : Thread nD τ).loc main_arg3)) := by
  show StableHlo.after hostOps0 (W0 m ρ c) (Proc.devRef .tc main_arg3) = W0 m ρ c (Proc.devRef .tc main_arg3)
  no_write hostOps0
theorem W1_arg4 : W1 m ρ c (Proc.devRef .tc main_arg4) = (m ((c : Thread nD τ).loc main_arg4)) := by
  show StableHlo.after hostOps0 (W0 m ρ c) (Proc.devRef .tc main_arg4) = W0 m ρ c (Proc.devRef .tc main_arg4)
  no_write hostOps0
theorem W1_arg5 : W1 m ρ c (Proc.devRef .tc main_arg5) = (m ((c : Thread nD τ).loc main_arg5)) := by
  show StableHlo.after hostOps0 (W0 m ρ c) (Proc.devRef .tc main_arg5) = W0 m ρ c (Proc.devRef .tc main_arg5)
  no_write hostOps0
theorem W1_arg6 : W1 m ρ c (Proc.devRef .tc main_arg6) = (m ((c : Thread nD τ).loc main_arg6)) := by
  show StableHlo.after hostOps0 (W0 m ρ c) (Proc.devRef .tc main_arg6) = W0 m ρ c (Proc.devRef .tc main_arg6)
  no_write hostOps0
theorem W1_arg7 : W1 m ρ c (Proc.devRef .tc main_arg7) = (m ((c : Thread nD τ).loc main_arg7)) := by
  show StableHlo.after hostOps0 (W0 m ρ c) (Proc.devRef .tc main_arg7) = W0 m ρ c (Proc.devRef .tc main_arg7)
  no_write hostOps0
theorem W1_arg9 : W1 m ρ c (Proc.devRef .tc main_arg9) = (m ((c : Thread nD τ).loc main_arg9)) := by
  show StableHlo.after hostOps0 (W0 m ρ c) (Proc.devRef .tc main_arg9) = W0 m ρ c (Proc.devRef .tc main_arg9)
  no_write hostOps0
theorem W1_arg10 : W1 m ρ c (Proc.devRef .tc main_arg10) = (m ((c : Thread nD τ).loc main_arg10)) := by
  show StableHlo.after hostOps0 (W0 m ρ c) (Proc.devRef .tc main_arg10) = W0 m ρ c (Proc.devRef .tc main_arg10)
  no_write hostOps0
theorem W1_arg11 : W1 m ρ c (Proc.devRef .tc main_arg11) = (m ((c : Thread nD τ).loc main_arg11)) := by
  show StableHlo.after hostOps0 (W0 m ρ c) (Proc.devRef .tc main_arg11) = W0 m ρ c (Proc.devRef .tc main_arg11)
  no_write hostOps0
theorem W1_arg12 : W1 m ρ c (Proc.devRef .tc main_arg12) = (m ((c : Thread nD τ).loc main_arg12)) := by
  show StableHlo.after hostOps0 (W0 m ρ c) (Proc.devRef .tc main_arg12) = W0 m ρ c (Proc.devRef .tc main_arg12)
  no_write hostOps0
theorem W1_arg13 : W1 m ρ c (Proc.devRef .tc main_arg13) = (m ((c : Thread nD τ).loc main_arg13)) := by
  show StableHlo.after hostOps0 (W0 m ρ c) (Proc.devRef .tc main_arg13) = W0 m ρ c (Proc.devRef .tc main_arg13)
  no_write hostOps0
theorem W1_arg15 : W1 m ρ c (Proc.devRef .tc main_arg15) = (m ((c : Thread nD τ).loc main_arg15)) := by
  show StableHlo.after hostOps0 (W0 m ρ c) (Proc.devRef .tc main_arg15) = W0 m ρ c (Proc.devRef .tc main_arg15)
  no_write hostOps0
theorem W1_arg16 : W1 m ρ c (Proc.devRef .tc main_arg16) = (m ((c : Thread nD τ).loc main_arg16)) := by
  show StableHlo.after hostOps0 (W0 m ρ c) (Proc.devRef .tc main_arg16) = W0 m ρ c (Proc.devRef .tc main_arg16)
  no_write hostOps0
theorem W1_arg17 : W1 m ρ c (Proc.devRef .tc main_arg17) = (m ((c : Thread nD τ).loc main_arg17)) := by
  show StableHlo.after hostOps0 (W0 m ρ c) (Proc.devRef .tc main_arg17) = W0 m ρ c (Proc.devRef .tc main_arg17)
  no_write hostOps0
theorem W1_arg18 : W1 m ρ c (Proc.devRef .tc main_arg18) = (m ((c : Thread nD τ).loc main_arg18)) := by
  show StableHlo.after hostOps0 (W0 m ρ c) (Proc.devRef .tc main_arg18) = W0 m ρ c (Proc.devRef .tc main_arg18)
  no_write hostOps0
theorem W1_arg19 : W1 m ρ c (Proc.devRef .tc main_arg19) = (m ((c : Thread nD τ).loc main_arg19)) := by
  show StableHlo.after hostOps0 (W0 m ρ c) (Proc.devRef .tc main_arg19) = W0 m ρ c (Proc.devRef .tc main_arg19)
  no_write hostOps0
theorem W1_arg20 : W1 m ρ c (Proc.devRef .tc main_arg20) = (m ((c : Thread nD τ).loc main_arg20)) := by
  show StableHlo.after hostOps0 (W0 m ρ c) (Proc.devRef .tc main_arg20) = W0 m ρ c (Proc.devRef .tc main_arg20)
  no_write hostOps0
theorem W1_arg21 : W1 m ρ c (Proc.devRef .tc main_arg21) = (m ((c : Thread nD τ).loc main_arg21)) := by
  show StableHlo.after hostOps0 (W0 m ρ c) (Proc.devRef .tc main_arg21) = W0 m ρ c (Proc.devRef .tc main_arg21)
  no_write hostOps0
theorem W1_arg22 : W1 m ρ c (Proc.devRef .tc main_arg22) = (m ((c : Thread nD τ).loc main_arg22)) := by
  show StableHlo.after hostOps0 (W0 m ρ c) (Proc.devRef .tc main_arg22) = W0 m ρ c (Proc.devRef .tc main_arg22)
  no_write hostOps0
theorem W1_arg23 : W1 m ρ c (Proc.devRef .tc main_arg23) = (m ((c : Thread nD τ).loc main_arg23)) := by
  show StableHlo.after hostOps0 (W0 m ρ c) (Proc.devRef .tc main_arg23) = W0 m ρ c (Proc.devRef .tc main_arg23)
  no_write hostOps0
theorem W2_arg0 : W2 m ρ c (Proc.devRef .tc main_arg0) = (m ((c : Thread nD τ).loc main_arg0)) :=
  (W2_of_ne m ρ c main_arg0 (by decide)).trans (W1_arg0 m ρ c)
theorem W2_arg2 : W2 m ρ c (Proc.devRef .tc main_arg2) = (m ((c : Thread nD τ).loc main_arg2)) :=
  (W2_of_ne m ρ c main_arg2 (by decide)).trans (W1_arg2 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg15 : W2 m ρ c (Proc.devRef .tc main_arg15) = (m ((c : Thread nD τ).loc main_arg15)) :=
  (W2_of_ne m ρ c main_arg15 (by decide)).trans (W1_arg15 m ρ c)
theorem W2_arg16 : W2 m ρ c (Proc.devRef .tc main_arg16) = (m ((c : Thread nD τ).loc main_arg16)) :=
  (W2_of_ne m ρ c main_arg16 (by decide)).trans (W1_arg16 m ρ c)
theorem W2_arg17 : W2 m ρ c (Proc.devRef .tc main_arg17) = (m ((c : Thread nD τ).loc main_arg17)) :=
  (W2_of_ne m ρ c main_arg17 (by decide)).trans (W1_arg17 m ρ c)
theorem W2_arg18 : W2 m ρ c (Proc.devRef .tc main_arg18) = (m ((c : Thread nD τ).loc main_arg18)) :=
  (W2_of_ne m ρ c main_arg18 (by decide)).trans (W1_arg18 m ρ c)
theorem W2_arg19 : W2 m ρ c (Proc.devRef .tc main_arg19) = (m ((c : Thread nD τ).loc main_arg19)) :=
  (W2_of_ne m ρ c main_arg19 (by decide)).trans (W1_arg19 m ρ c)
theorem W2_arg20 : W2 m ρ c (Proc.devRef .tc main_arg20) = (m ((c : Thread nD τ).loc main_arg20)) :=
  (W2_of_ne m ρ c main_arg20 (by decide)).trans (W1_arg20 m ρ c)
theorem W2_arg21 : W2 m ρ c (Proc.devRef .tc main_arg21) = (m ((c : Thread nD τ).loc main_arg21)) :=
  (W2_of_ne m ρ c main_arg21 (by decide)).trans (W1_arg21 m ρ c)
theorem W2_arg22 : W2 m ρ c (Proc.devRef .tc main_arg22) = (m ((c : Thread nD τ).loc main_arg22)) :=
  (W2_of_ne m ρ c main_arg22 (by decide)).trans (W1_arg22 m ρ c)
theorem W2_arg23 : W2 m ρ c (Proc.devRef .tc main_arg23) = (m ((c : Thread nD τ).loc main_arg23)) :=
  (W2_of_ne m ρ c main_arg23 (by decide)).trans (W1_arg23 m ρ c)
theorem W3_arg0 : W3 m ρ c (Proc.devRef .tc main_arg0) = (m ((c : Thread nD τ).loc main_arg0)) :=
  (show StableHlo.after hostOps1 (W2 m ρ c) (Proc.devRef .tc main_arg0) = W2 m ρ c (Proc.devRef .tc main_arg0) by no_write hostOps1).trans (W2_arg0 m ρ c)
theorem W3_arg2 : W3 m ρ c (Proc.devRef .tc main_arg2) = (m ((c : Thread nD τ).loc main_arg2)) :=
  (show StableHlo.after hostOps1 (W2 m ρ c) (Proc.devRef .tc main_arg2) = W2 m ρ c (Proc.devRef .tc main_arg2) by no_write hostOps1).trans (W2_arg2 m ρ c)
theorem W3_arg3 : W3 m ρ c (Proc.devRef .tc main_arg3) = (m ((c : Thread nD τ).loc main_arg3)) :=
  (show StableHlo.after hostOps1 (W2 m ρ c) (Proc.devRef .tc main_arg3) = W2 m ρ c (Proc.devRef .tc main_arg3) by no_write hostOps1).trans (W2_arg3 m ρ c)
theorem W3_arg4 : W3 m ρ c (Proc.devRef .tc main_arg4) = (m ((c : Thread nD τ).loc main_arg4)) :=
  (show StableHlo.after hostOps1 (W2 m ρ c) (Proc.devRef .tc main_arg4) = W2 m ρ c (Proc.devRef .tc main_arg4) by no_write hostOps1).trans (W2_arg4 m ρ c)
theorem W3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) by no_write hostOps1).trans (W2_arg5 m ρ c)
theorem W3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) by no_write hostOps1).trans (W2_arg9 m ρ c)
theorem W3_arg10 : W3 m ρ c (Proc.devRef .tc main_arg10) = (m ((c : Thread nD τ).loc main_arg10)) :=
  (show StableHlo.after hostOps1 (W2 m ρ c) (Proc.devRef .tc main_arg10) = W2 m ρ c (Proc.devRef .tc main_arg10) by no_write hostOps1).trans (W2_arg10 m ρ c)
theorem W3_arg15 : W3 m ρ c (Proc.devRef .tc main_arg15) = (m ((c : Thread nD τ).loc main_arg15)) :=
  (show StableHlo.after hostOps1 (W2 m ρ c) (Proc.devRef .tc main_arg15) = W2 m ρ c (Proc.devRef .tc main_arg15) by no_write hostOps1).trans (W2_arg15 m ρ c)
theorem W3_arg16 : W3 m ρ c (Proc.devRef .tc main_arg16) = (m ((c : Thread nD τ).loc main_arg16)) :=
  (show StableHlo.after hostOps1 (W2 m ρ c) (Proc.devRef .tc main_arg16) = W2 m ρ c (Proc.devRef .tc main_arg16) by no_write hostOps1).trans (W2_arg16 m ρ c)
theorem W3_arg17 : W3 m ρ c (Proc.devRef .tc main_arg17) = (m ((c : Thread nD τ).loc main_arg17)) :=
  (show StableHlo.after hostOps1 (W2 m ρ c) (Proc.devRef .tc main_arg17) = W2 m ρ c (Proc.devRef .tc main_arg17) by no_write hostOps1).trans (W2_arg17 m ρ c)
theorem W3_arg18 : W3 m ρ c (Proc.devRef .tc main_arg18) = (m ((c : Thread nD τ).loc main_arg18)) :=
  (show StableHlo.after hostOps1 (W2 m ρ c) (Proc.devRef .tc main_arg18) = W2 m ρ c (Proc.devRef .tc main_arg18) by no_write hostOps1).trans (W2_arg18 m ρ c)
theorem W3_arg19 : W3 m ρ c (Proc.devRef .tc main_arg19) = (m ((c : Thread nD τ).loc main_arg19)) :=
  (show StableHlo.after hostOps1 (W2 m ρ c) (Proc.devRef .tc main_arg19) = W2 m ρ c (Proc.devRef .tc main_arg19) by no_write hostOps1).trans (W2_arg19 m ρ c)
theorem W3_arg20 : W3 m ρ c (Proc.devRef .tc main_arg20) = (m ((c : Thread nD τ).loc main_arg20)) :=
  (show StableHlo.after hostOps1 (W2 m ρ c) (Proc.devRef .tc main_arg20) = W2 m ρ c (Proc.devRef .tc main_arg20) by no_write hostOps1).trans (W2_arg20 m ρ c)
theorem W3_arg21 : W3 m ρ c (Proc.devRef .tc main_arg21) = (m ((c : Thread nD τ).loc main_arg21)) :=
  (show StableHlo.after hostOps1 (W2 m ρ c) (Proc.devRef .tc main_arg21) = W2 m ρ c (Proc.devRef .tc main_arg21) by no_write hostOps1).trans (W2_arg21 m ρ c)
theorem W3_arg22 : W3 m ρ c (Proc.devRef .tc main_arg22) = (m ((c : Thread nD τ).loc main_arg22)) :=
  (show StableHlo.after hostOps1 (W2 m ρ c) (Proc.devRef .tc main_arg22) = W2 m ρ c (Proc.devRef .tc main_arg22) by no_write hostOps1).trans (W2_arg22 m ρ c)
theorem W3_arg23 : W3 m ρ c (Proc.devRef .tc main_arg23) = (m ((c : Thread nD τ).loc main_arg23)) :=
  (show StableHlo.after hostOps1 (W2 m ρ c) (Proc.devRef .tc main_arg23) = W2 m ρ c (Proc.devRef .tc main_arg23) by no_write hostOps1).trans (W2_arg23 m ρ c)
theorem W4_arg2 : W4 m ρ c (Proc.devRef .tc main_arg2) = (m ((c : Thread nD τ).loc main_arg2)) :=
  (W4_of_ne m ρ c main_arg2 (by decide)).trans (W3_arg2 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg15 : W4 m ρ c (Proc.devRef .tc main_arg15) = (m ((c : Thread nD τ).loc main_arg15)) :=
  (W4_of_ne m ρ c main_arg15 (by decide)).trans (W3_arg15 m ρ c)
theorem W4_arg16 : W4 m ρ c (Proc.devRef .tc main_arg16) = (m ((c : Thread nD τ).loc main_arg16)) :=
  (W4_of_ne m ρ c main_arg16 (by decide)).trans (W3_arg16 m ρ c)
theorem W4_arg17 : W4 m ρ c (Proc.devRef .tc main_arg17) = (m ((c : Thread nD τ).loc main_arg17)) :=
  (W4_of_ne m ρ c main_arg17 (by decide)).trans (W3_arg17 m ρ c)
theorem W4_arg18 : W4 m ρ c (Proc.devRef .tc main_arg18) = (m ((c : Thread nD τ).loc main_arg18)) :=
  (W4_of_ne m ρ c main_arg18 (by decide)).trans (W3_arg18 m ρ c)
theorem W4_arg19 : W4 m ρ c (Proc.devRef .tc main_arg19) = (m ((c : Thread nD τ).loc main_arg19)) :=
  (W4_of_ne m ρ c main_arg19 (by decide)).trans (W3_arg19 m ρ c)
theorem W4_arg20 : W4 m ρ c (Proc.devRef .tc main_arg20) = (m ((c : Thread nD τ).loc main_arg20)) :=
  (W4_of_ne m ρ c main_arg20 (by decide)).trans (W3_arg20 m ρ c)
theorem W4_arg21 : W4 m ρ c (Proc.devRef .tc main_arg21) = (m ((c : Thread nD τ).loc main_arg21)) :=
  (W4_of_ne m ρ c main_arg21 (by decide)).trans (W3_arg21 m ρ c)
theorem W4_arg22 : W4 m ρ c (Proc.devRef .tc main_arg22) = (m ((c : Thread nD τ).loc main_arg22)) :=
  (W4_of_ne m ρ c main_arg22 (by decide)).trans (W3_arg22 m ρ c)
theorem W4_arg23 : W4 m ρ c (Proc.devRef .tc main_arg23) = (m ((c : Thread nD τ).loc main_arg23)) :=
  (W4_of_ne m ρ c main_arg23 (by decide)).trans (W3_arg23 m ρ c)
theorem W5_arg15 : W5 m ρ c (Proc.devRef .tc main_arg15) = (m ((c : Thread nD τ).loc main_arg15)) :=
  (show StableHlo.after hostOps2 (W4 m ρ c) (Proc.devRef .tc main_arg15) = W4 m ρ c (Proc.devRef .tc main_arg15) by no_write hostOps2).trans (W4_arg15 m ρ c)
theorem W5_arg16 : W5 m ρ c (Proc.devRef .tc main_arg16) = (m ((c : Thread nD τ).loc main_arg16)) :=
  (show StableHlo.after hostOps2 (W4 m ρ c) (Proc.devRef .tc main_arg16) = W4 m ρ c (Proc.devRef .tc main_arg16) by no_write hostOps2).trans (W4_arg16 m ρ c)
theorem W5_arg18 : W5 m ρ c (Proc.devRef .tc main_arg18) = (m ((c : Thread nD τ).loc main_arg18)) :=
  (show StableHlo.after hostOps2 (W4 m ρ c) (Proc.devRef .tc main_arg18) = W4 m ρ c (Proc.devRef .tc main_arg18) by no_write hostOps2).trans (W4_arg18 m ρ c)
theorem W5_arg19 : W5 m ρ c (Proc.devRef .tc main_arg19) = (m ((c : Thread nD τ).loc main_arg19)) :=
  (show StableHlo.after hostOps2 (W4 m ρ c) (Proc.devRef .tc main_arg19) = W4 m ρ c (Proc.devRef .tc main_arg19) by no_write hostOps2).trans (W4_arg19 m ρ c)
theorem W5_arg20 : W5 m ρ c (Proc.devRef .tc main_arg20) = (m ((c : Thread nD τ).loc main_arg20)) :=
  (show StableHlo.after hostOps2 (W4 m ρ c) (Proc.devRef .tc main_arg20) = W4 m ρ c (Proc.devRef .tc main_arg20) by no_write hostOps2).trans (W4_arg20 m ρ c)
theorem W5_arg21 : W5 m ρ c (Proc.devRef .tc main_arg21) = (m ((c : Thread nD τ).loc main_arg21)) :=
  (show StableHlo.after hostOps2 (W4 m ρ c) (Proc.devRef .tc main_arg21) = W4 m ρ c (Proc.devRef .tc main_arg21) by no_write hostOps2).trans (W4_arg21 m ρ c)
theorem W5_arg22 : W5 m ρ c (Proc.devRef .tc main_arg22) = (m ((c : Thread nD τ).loc main_arg22)) :=
  (show StableHlo.after hostOps2 (W4 m ρ c) (Proc.devRef .tc main_arg22) = W4 m ρ c (Proc.devRef .tc main_arg22) by no_write hostOps2).trans (W4_arg22 m ρ c)
theorem W6_arg18 : W6 m ρ c (Proc.devRef .tc main_arg18) = (m ((c : Thread nD τ).loc main_arg18)) :=
  (W6_of_ne m ρ c main_arg18 (by decide)).trans (W5_arg18 m ρ c)
theorem W6_arg19 : W6 m ρ c (Proc.devRef .tc main_arg19) = (m ((c : Thread nD τ).loc main_arg19)) :=
  (W6_of_ne m ρ c main_arg19 (by decide)).trans (W5_arg19 m ρ c)
theorem W6_arg20 : W6 m ρ c (Proc.devRef .tc main_arg20) = (m ((c : Thread nD τ).loc main_arg20)) :=
  (W6_of_ne m ρ c main_arg20 (by decide)).trans (W5_arg20 m ρ c)
theorem W7_arg18 : W7 m ρ c (Proc.devRef .tc main_arg18) = (m ((c : Thread nD τ).loc main_arg18)) :=
  (show StableHlo.after hostOps3 (W6 m ρ c) (Proc.devRef .tc main_arg18) = W6 m ρ c (Proc.devRef .tc main_arg18) by no_write hostOps3).trans (W6_arg18 m ρ c)
theorem W7_arg19 : W7 m ρ c (Proc.devRef .tc main_arg19) = (m ((c : Thread nD τ).loc main_arg19)) :=
  (show StableHlo.after hostOps3 (W6 m ρ c) (Proc.devRef .tc main_arg19) = W6 m ρ c (Proc.devRef .tc main_arg19) by no_write hostOps3).trans (W6_arg19 m ρ c)

/-! ## The regions' outputs at the later boundaries -/

theorem W2_v59 : W2 m ρ c (Proc.devRef .tc main_v59) = hItem m ρ c := W2_arr m ρ c 9
theorem W4_v59 : W4 m ρ c (Proc.devRef .tc main_v59) = hItem m ρ c :=
  (W4_of_ne m ρ c main_v59 (by decide)).trans
    ((show StableHlo.after hostOps1 (W2 m ρ c) (Proc.devRef .tc main_v59) = W2 m ρ c (Proc.devRef .tc main_v59) by no_write hostOps1).trans (W2_v59 m ρ c))
theorem W4_v61 : W4 m ρ c (Proc.devRef .tc main_v61) = hUser m ρ c := W4_arr m ρ c 5

/-! ## Region 0's entry -/

set_option maxHeartbeats 4000000 in
theorem V1_v18 : V1 m ρ c main_v18 = mean128 (m ((c : Thread nD τ).loc main_arg0)) (m ((c : Thread nD τ).loc main_arg2)) (m ((c : Thread nD τ).loc main_arg3)) := by
  show StableHlo.after hostOps0 (W0 m ρ c) (Proc.devRef .tc main_v18) = _
  after_results_simp
  rfl
set_option maxHeartbeats 4000000 in
theorem V1_v37 : V1 m ρ c main_v37 = mean128 (m ((c : Thread nD τ).loc main_arg1)) (m ((c : Thread nD τ).loc main_arg4)) (m ((c : Thread nD τ).loc main_arg5)) := by
  show StableHlo.after hostOps0 (W0 m ρ c) (Proc.devRef .tc main_v37) = _
  after_results_simp
  rfl
theorem V1_arg1 : V1 m ρ c main_arg1 = (m ((c : Thread nD τ).loc main_arg1)) := W1_arg1 m ρ c
theorem V1_arg6 : V1 m ρ c main_arg6 = (m ((c : Thread nD τ).loc main_arg6)) := W1_arg6 m ρ c
theorem V1_arg7 : V1 m ρ c main_arg7 = (m ((c : Thread nD τ).loc main_arg7)) := W1_arg7 m ρ c
theorem V1_arg12 : V1 m ρ c main_arg12 = (m ((c : Thread nD τ).loc main_arg12)) := W1_arg12 m ρ c
theorem V1_arg13 : V1 m ρ c main_arg13 = (m ((c : Thread nD τ).loc main_arg13)) := W1_arg13 m ρ c
theorem V1_v57 : V1 m ρ c main_v57 = row (m ((c : Thread nD τ).loc main_arg8)) := by
  show StableHlo.after hostOps0 (W0 m ρ c) (Proc.devRef .tc main_v57) = _
  after_results
  rfl
theorem V1_v58 : V1 m ρ c main_v58 = row (m ((c : Thread nD τ).loc main_arg14)) := by
  show StableHlo.after hostOps0 (W0 m ρ c) (Proc.devRef .tc main_v58) = _
  after_results
  rfl

/-! ## Region 1's entry -/

set_option maxHeartbeats 4000000 in
theorem W1_v56 : W1 m ρ c (Proc.devRef .tc main_v56) = mean128 (m ((c : Thread nD τ).loc main_arg1)) (m ((c : Thread nD τ).loc main_arg3)) (m ((c : Thread nD τ).loc main_arg2)) := by
  show StableHlo.after hostOps0 (W0 m ρ c) (Proc.devRef .tc main_v56) = _
  after_results_simp
  rfl
theorem V3_v56 : V3 m ρ c main_v56 = mean128 (m ((c : Thread nD τ).loc main_arg1)) (m ((c : Thread nD τ).loc main_arg3)) (m ((c : Thread nD τ).loc main_arg2)) :=
  (show StableHlo.after hostOps1 (W2 m ρ c) (Proc.devRef .tc main_v56) = W2 m ρ c (Proc.devRef .tc main_v56) by no_write hostOps1).trans
    ((W2_of_ne m ρ c main_v56 (by decide)).trans (W1_v56 m ρ c))
theorem V3_arg0 : V3 m ρ c main_arg0 = (m ((c : Thread nD τ).loc main_arg0)) := W3_arg0 m ρ c
theorem V3_arg9 : V3 m ρ c main_arg9 = (m ((c : Thread nD τ).loc main_arg9)) := W3_arg9 m ρ c
theorem V3_arg10 : V3 m ρ c main_arg10 = (m ((c : Thread nD τ).loc main_arg10)) := W3_arg10 m ρ c
theorem V3_v60 : V3 m ρ c main_v60 = row (m ((c : Thread nD τ).loc main_arg11)) := by
  show StableHlo.after hostOps1 (W2 m ρ c) (Proc.devRef .tc main_v60) = _
  after_results
  rw [W2_arg11 m ρ c]
  rfl

/-! ## Region 2's entry -/

set_option maxHeartbeats 4000000 in
theorem V5_v80 : V5 m ρ c main_v80 = mean256 (hUser m ρ c) (m ((c : Thread nD τ).loc main_arg2)) (m ((c : Thread nD τ).loc main_arg3)) := by
  show StableHlo.after hostOps2 (W4 m ρ c) (Proc.devRef .tc main_v80) = _
  after_results_simp
  rw [W4_v61 m ρ c, W4_arg2 m ρ c, W4_arg3 m ρ c]
  rfl
set_option maxHeartbeats 4000000 in
theorem V5_v99 : V5 m ρ c main_v99 = mean256 (hItem m ρ c) (m ((c : Thread nD τ).loc main_arg4)) (m ((c : Thread nD τ).loc main_arg5)) := by
  show StableHlo.after hostOps2 (W4 m ρ c) (Proc.devRef .tc main_v99) = _
  after_results_simp
  rw [W4_v59 m ρ c, W4_arg4 m ρ c, W4_arg5 m ρ c]
  rfl
theorem V5_v59 : V5 m ρ c main_v59 = hItem m ρ c :=
  (show StableHlo.after hostOps2 (W4 m ρ c) (Proc.devRef .tc main_v59) = W4 m ρ c (Proc.devRef .tc main_v59) by no_write hostOps2).trans (W4_v59 m ρ c)
theorem V5_arg15 : V5 m ρ c main_arg15 = (m ((c : Thread nD τ).loc main_arg15)) := W5_arg15 m ρ c
theorem V5_arg16 : V5 m ρ c main_arg16 = (m ((c : Thread nD τ).loc main_arg16)) := W5_arg16 m ρ c
theorem V5_arg21 : V5 m ρ c main_arg21 = (m ((c : Thread nD τ).loc main_arg21)) := W5_arg21 m ρ c
theorem V5_arg22 : V5 m ρ c main_arg22 = (m ((c : Thread nD τ).loc main_arg22)) := W5_arg22 m ρ c
theorem V5_v119 : V5 m ρ c main_v119 = row (m ((c : Thread nD τ).loc main_arg17)) := by
  show StableHlo.after hostOps2 (W4 m ρ c) (Proc.devRef .tc main_v119) = _
  after_results
  rw [W4_arg17 m ρ c]
  rfl
theorem V5_v120 : V5 m ρ c main_v120 = row (m ((c : Thread nD τ).loc main_arg23)) := by
  show StableHlo.after hostOps2 (W4 m ρ c) (Proc.devRef .tc main_v120) = _
  after_results
  rw [W4_arg23 m ρ c]
  rfl

/-! ## Region 3's entry -/

set_option maxHeartbeats 4000000 in
theorem W5_v118 : W5 m ρ c (Proc.devRef .tc main_v118) = mean256 (hItem m ρ c) (m ((c : Thread nD τ).loc main_arg3)) (m ((c : Thread nD τ).loc main_arg2)) := by
  show StableHlo.after hostOps2 (W4 m ρ c) (Proc.devRef .tc main_v118) = _
  after_results_simp
  rw [W4_v59 m ρ c, W4_arg3 m ρ c, W4_arg2 m ρ c]
  rfl
theorem V7_v118 : V7 m ρ c main_v118 = mean256 (hItem m ρ c) (m ((c : Thread nD τ).loc main_arg3)) (m ((c : Thread nD τ).loc main_arg2)) :=
  (show StableHlo.after hostOps3 (W6 m ρ c) (Proc.devRef .tc main_v118) = W6 m ρ c (Proc.devRef .tc main_v118) by no_write hostOps3).trans
    ((W6_of_ne m ρ c main_v118 (by decide)).trans (W5_v118 m ρ c))
theorem V7_v61 : V7 m ρ c main_v61 = hUser m ρ c :=
  (show StableHlo.after hostOps3 (W6 m ρ c) (Proc.devRef .tc main_v61) = W6 m ρ c (Proc.devRef .tc main_v61) by no_write hostOps3).trans
    ((W6_of_ne m ρ c main_v61 (by decide)).trans
      ((show StableHlo.after hostOps2 (W4 m ρ c) (Proc.devRef .tc main_v61) = W4 m ρ c (Proc.devRef .tc main_v61) by no_write hostOps2).trans (W4_v61 m ρ c)))
theorem V7_arg18 : V7 m ρ c main_arg18 = (m ((c : Thread nD τ).loc main_arg18)) := W7_arg18 m ρ c
theorem V7_arg19 : V7 m ρ c main_arg19 = (m ((c : Thread nD τ).loc main_arg19)) := W7_arg19 m ρ c
theorem V7_v122 : V7 m ρ c main_v122 = row (m ((c : Thread nD τ).loc main_arg20)) := by
  show StableHlo.after hostOps3 (W6 m ρ c) (Proc.devRef .tc main_v122) = _
  after_results
  rw [W6_arg20 m ρ c]
  rfl

/-! ## The results at the last boundary -/

theorem W8_v123 : W8 m ρ c (Proc.devRef .tc main_v123) = (dat3 (V7 m ρ) c).arrAt 5 cfg3.N := W8_arr m ρ c 5
theorem W8_v121 : W8 m ρ c (Proc.devRef .tc main_v121) = oItem m ρ c :=
  (W8_of_ne m ρ c main_v121 (by decide)).trans
    ((show StableHlo.after hostOps3 (W6 m ρ c) (Proc.devRef .tc main_v121) = W6 m ρ c (Proc.devRef .tc main_v121) by no_write hostOps3).trans (W6_arr m ρ c 9))

end Cert.KernelIdeal.Walk

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.Body.lean ====
/-
  What each kernel body writes, entry by entry.  A body loads a block of 2000 rows of every row-tiled operand, the whole
  weight matrices and the one-row biases, and stores one 2000 × 256 block.  Over the extended reals a change of float
  format is the identity, and a matrix product into a zero accumulator is the plain sum of products, so entry (r, j) of the
  stored block is a sum of "row r of a block times column j of a weight" terms plus the biases' entry j, and in the first
  layer the maximum of that with zero.
-/
import proofs.«150538_j16492674417215_1_alg».proof.Proof.Gen.KernelIdeal.Skeleton
import proofs.«150538_j16492674417215_1_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal

/-- Row `r` of a 2000 × 128 block times column `j` of a 128 × 256 weight. -/
def rc128 (A : FVec Ideal S2000x128 .f32) (B : FVec Ideal S128x256 .f32) (r : Fin 2000) (j : Fin 256) : EReal :=
  ∑ c : Fin 128, A (ix2 r c) * B (ix2 c j)

/-- Row `r` of a 2000 × 256 block times column `j` of a 256 × 256 weight. -/
def rc256 (A : FVec Ideal S2000x256 .f32) (B : FVec Ideal S256x256 .f32) (r : Fin 2000) (j : Fin 256) : EReal :=
  ∑ c : Fin 256, A (ix2 r c) * B (ix2 c j)

/-- The 2000 × 128 by 128 × 256 product into zero, with both operands passed through a change of format, at (r, j). -/
theorem mm128 (A : FVec Ideal S2000x128 .f32) (B : FVec Ideal S128x256 .f32) (hA hB) (r : Fin 2000) (j : Fin 256) :
    matmul dot_S2000x128_S128x256_S2000x256_1_0_0_1_n_n none (truncf .bf16 A hA) (truncf .bf16 B hB)
      (constant (F := Ideal) S2000x256 .f32 0x00000000#32) (ix2 r j) = rc128 A B r j :=
  Cert.LibMatmul.matmul_plain_zero_apply (M := 2000) (K := 128) (N := 256) none (truncf .bf16 A hA) (truncf .bf16 B hB) r j

/-- The 2000 × 256 by 256 × 256 product into zero, with both operands passed through a change of format, at (r, j). -/
theorem mm256 (A : FVec Ideal S2000x256 .f32) (B : FVec Ideal S256x256 .f32) (hA hB) (r : Fin 2000) (j : Fin 256) :
    matmul dot_S2000x256_S256x256_S2000x256_1_0_0_1_n_n none (truncf .bf16 A hA) (truncf .bf16 B hB)
      (constant (F := Ideal) S2000x256 .f32 0x00000000#32) (ix2 r j) = rc256 A B r j :=
  Cert.LibMatmul.matmul_plain_zero_apply (M := 2000) (K := 256) (N := 256) none (truncf .bf16 A hA) (truncf .bf16 B hB) r j

/-- A one-row bias spread over the 2000 rows of a block reads its entry `j` in every row. -/
theorem bias_row (b : FVec Ideal S1x256 .f32) (h) (r : Fin 2000) (j : Fin 256) :
    broadcastTo S2000x256 b h (ix2 r j) = b (ix2 (0 : Fin 1) j) :=
  broadcastTo_1b_ab_apply b h r j

/-- The zero word is the real number zero. -/
theorem zero_word : Ideal.ofBits .f32 0x00000000#32 = (0 : EReal) := Ideal.ofBits_zero_f32

/-- First layer, item nodes: two neighbour means and the nodes' own features through four weights, two biases, then
    the maximum with zero. -/
theorem pay0_apply (x0 x3 x6 : FVec Ideal S2000x128 .f32) (x8 x10 x12 x14 : FVec Ideal S128x256 .f32)
    (x23 x27 : FVec Ideal S1x256 .f32) (r : Fin 2000) (j : Fin 256) :
    Gen.k0_pay1 (F := Ideal) x0 x3 x6 x8 x10 x12 x14 x23 x27 (ix2 r j)
      = max (rc128 x0 x8 r j + rc128 x6 x10 r j + rc128 x3 x12 r j + rc128 x6 x14 r j
              + x23 (ix2 (0 : Fin 1) j) + x27 (ix2 (0 : Fin 1) j)) 0 := by
  unfold Gen.k0_pay1
  simp only [shapeCast_self]
  rw [maximumf_apply, addf_apply, addf_apply, addf_apply, addf_apply, addf_apply, mm128, mm128, mm128, mm128,
    bias_row, bias_row, broadcast_apply]
  exact congrArg (max _) zero_word

/-- First layer, user nodes: one neighbour mean and the nodes' own features through two weights, one bias, then the
    maximum with zero. -/
theorem pay1_apply (x0 x3 : FVec Ideal S2000x128 .f32) (x5 x7 : FVec Ideal S128x256 .f32) (x12 : FVec Ideal S1x256 .f32)
    (r : Fin 2000) (j : Fin 256) :
    Gen.k1_pay1 (F := Ideal) x0 x3 x5 x7 x12 (ix2 r j)
      = max (rc128 x0 x5 r j + rc128 x3 x7 r j + x12 (ix2 (0 : Fin 1) j)) 0 := by
  unfold Gen.k1_pay1
  simp only [shapeCast_self]
  rw [maximumf_apply, addf_apply, addf_apply, mm128, mm128, bias_row, broadcast_apply]
  exact congrArg (max _) zero_word

/-- Second layer, item nodes: as the first layer's, over 256 hidden features and without the maximum. -/
theorem pay2_apply (x0 x3 x6 : FVec Ideal S2000x256 .f32) (x9 x11 x13 x15 : FVec Ideal S256x256 .f32)
    (x24 x28 : FVec Ideal S1x256 .f32) (r : Fin 2000) (j : Fin 256) :
    Gen.k2_pay1 (F := Ideal) x0 x3 x6 x9 x11 x13 x15 x24 x28 (ix2 r j)
      = rc256 x0 x9 r j + rc256 x6 x11 r j + rc256 x3 x13 r j + rc256 x6 x15 r j
          + x24 (ix2 (0 : Fin 1) j) + x28 (ix2 (0 : Fin 1) j) := by
  unfold Gen.k2_pay1
  simp only [shapeCast_self]
  rw [addf_apply, addf_apply, addf_apply, addf_apply, addf_apply, mm256, mm256, mm256, mm256, bias_row, bias_row]

/-- Second layer, user nodes: as the first layer's, over 256 hidden features and without the maximum. -/
theorem pay3_apply (x0 x3 : FVec Ideal S2000x256 .f32) (x6 x8 : FVec Ideal S256x256 .f32) (x13 : FVec Ideal S1x256 .f32)
    (r : Fin 2000) (j : Fin 256) :
    Gen.k3_pay1 (F := Ideal) x0 x3 x6 x8 x13 (ix2 r j)
      = rc256 x0 x6 r j + rc256 x3 x8 r j + x13 (ix2 (0 : Fin 1) j) := by
  unfold Gen.k3_pay1
  simp only [shapeCast_self]
  rw [addf_apply, addf_apply, mm256, mm256, bias_row]

end Cert.KernelIdeal.Body

end
-- ==== Proof.SpecDense.lean ====
/-
  The dense half of a layer as one whole-array function.  For a table `A` with one row per node and a weight `B`, entry
  (a, j) of the product is the sum over the shared coordinate.  A node type fed by two edge types gets
      mA·WlA + x·WrA + mB·WlB + x·WrB + bA + bB
  and a node type fed by one edge type gets  mn·Wl + x·Wr + b,  the biases given as one-row matrices; the first layer
  ends in the maximum with zero.  All sums are sums of extended reals, where addition is commutative and associative, so
  the order in which the six (or three) terms are added does not matter.
-/
import proofs.«150538_j16492674417215_1_alg».proof.Proof.Gen.KernelIdeal
import Idealize.ShloMosaic.Lib.ValueIdx
import Idealize.ShloMosaic.PureOps.Ideal

noncomputable section

open scoped BigOperators

namespace Cert.KernelIdeal.Spec

open Idealize.ShloMosaic Idealize.ShloMosaic.ValueIdx Cert.KernelIdeal

/-- Entry (a, j) of a 100000 × 128 table times a 128 × 256 weight. -/
def dot128 (A : FVec Ideal S100000x128 .f32) (B : FVec Ideal S128x256 .f32) (a : Fin 100000) (j : Fin 256) : EReal :=
  ∑ c : Fin 128, A (ix2 a c) * B (ix2 c j)

/-- Entry (a, j) of a 100000 × 256 table times a 256 × 256 weight. -/
def dot256 (A : FVec Ideal S100000x256 .f32) (B : FVec Ideal S256x256 .f32) (a : Fin 100000) (j : Fin 256) : EReal :=
  ∑ c : Fin 256, A (ix2 a c) * B (ix2 c j)

/-- Two edge types into one node type, 128 input features, before the maximum with zero, at (a, j). -/
def two128At (mA mB x : FVec Ideal S100000x128 .f32) (WlA WrA WlB WrB : FVec Ideal S128x256 .f32)
    (bA bB : FVec Ideal S1x256 .f32) (a : Fin 100000) (j : Fin 256) : EReal :=
  dot128 mA WlA a j + dot128 x WrA a j + dot128 mB WlB a j + dot128 x WrB a j + bA (ix2 (0 : Fin 1) j) + bB (ix2 (0 : Fin 1) j)

/-- One edge type into a node type, 128 input features, before the maximum with zero, at (a, j). -/
def one128At (mn x : FVec Ideal S100000x128 .f32) (Wl Wr : FVec Ideal S128x256 .f32) (b : FVec Ideal S1x256 .f32)
    (a : Fin 100000) (j : Fin 256) : EReal :=
  dot128 mn Wl a j + dot128 x Wr a j + b (ix2 (0 : Fin 1) j)

/-- Two edge types into one node type, 256 input features, at (a, j). -/
def two256At (mA mB x : FVec Ideal S100000x256 .f32) (WlA WrA WlB WrB : FVec Ideal S256x256 .f32)
    (bA bB : FVec Ideal S1x256 .f32) (a : Fin 100000) (j : Fin 256) : EReal :=
  dot256 mA WlA a j + dot256 x WrA a j + dot256 mB WlB a j + dot256 x WrB a j + bA (ix2 (0 : Fin 1) j) + bB (ix2 (0 : Fin 1) j)

/-- One edge type into a node type, 256 input features, at (a, j). -/
def one256At (mn x : FVec Ideal S100000x256 .f32) (Wl Wr : FVec Ideal S256x256 .f32) (b : FVec Ideal S1x256 .f32)
    (a : Fin 100000) (j : Fin 256) : EReal :=
  dot256 mn Wl a j + dot256 x Wr a j + b (ix2 (0 : Fin 1) j)

/-- First layer, the node type with two incoming edge types: the hidden table. -/
def hidden2 (mA mB x : FVec Ideal S100000x128 .f32) (WlA WrA WlB WrB : FVec Ideal S128x256 .f32)
    (bA bB : FVec Ideal S1x256 .f32) : FVec Ideal S100000x256 .f32 :=
  fun i => max (two128At mA mB x WlA WrA WlB WrB bA bB (i 0) (i 1)) 0

/-- First layer, the node type with one incoming edge type: the hidden table. -/
def hidden1 (mn x : FVec Ideal S100000x128 .f32) (Wl Wr : FVec Ideal S128x256 .f32) (b : FVec Ideal S1x256 .f32) :
    FVec Ideal S100000x256 .f32 :=
  fun i => max (one128At mn x Wl Wr b (i 0) (i 1)) 0

/-- Second layer, the node type with two incoming edge types: the output table. -/
def out2 (mA mB x : FVec Ideal S100000x256 .f32) (WlA WrA WlB WrB : FVec Ideal S256x256 .f32)
    (bA bB : FVec Ideal S1x256 .f32) : FVec Ideal S100000x256 .f32 :=
  fun i => two256At mA mB x WlA WrA WlB WrB bA bB (i 0) (i 1)

/-- Second layer, the node type with one incoming edge type: the output table. -/
def out1 (mn x : FVec Ideal S100000x256 .f32) (Wl Wr : FVec Ideal S256x256 .f32) (b : FVec Ideal S1x256 .f32) :
    FVec Ideal S100000x256 .f32 :=
  fun i => one256At mn x Wl Wr b (i 0) (i 1)

end Cert.KernelIdeal.Spec

end
-- ==== Proof.Region0.lean ====
/-
  Region 0 (first layer, item nodes) as a whole-array function.  The grid has 50 points; point `t` reads rows 2000·t … 2000·t + 1999 of
  the row-tiled node tables, the whole weights and biases, and writes back the same rows of the output.  Entry
  (2000·t + r, j) of what it writes is the body's entry (r, j), whose row-by-column sums read exactly row 2000·t + r of the
  tables; the 50 row ranges cover all 100000 rows, so after the run the output array is `hidden2` of the arrays the region
  was entered with.
-/
import proofs.«150538_j16492674417215_1_alg».proof.Proof.Gen.KernelIdeal.Frame
import proofs.«150538_j16492674417215_1_alg».proof.Proof.Body
import proofs.«150538_j16492674417215_1_alg».proof.Proof.SpecDense
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Spec Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: the row-tiled windows and the output sit at block row `t`, block
    column 0; the weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `r` of grid point `t`'s block is row `2000·t + r` of the table. -/
def rowOf (t : Fin cfg0.N) (r : Fin 2000) : Fin 100000 :=
  ⟨t.val * 2000 + r.val, by have ht : t.val < 50 := lt_of_lt_of_eq t.isLt N_0; have := r.isLt; omega⟩

/-- An index of the output array lies in point `t`'s block iff each coordinate lies in the block's range. -/
theorem mem_blk (t : Fin cfg0.N) (i : S100000x256.Idx) :
    i ∈ ((cfg0.win 9).blk t).view.set ↔ ∀ a : Fin 2, win0_9.index t a * S2000x256.size a ≤ (i a).val
      ∧ (i a).val < win0_9.index t a * S2000x256.size a + S2000x256.size a := by
  show i ∈ ((View.whole main_v59).slice (win0_9.rect t)).set ↔ _
  rw [View.set_slice_whole, Rect.mem_set_unit]
  exact Iff.rfl

/-- What point `t` writes back is block `t` of `hidden2` of the arrays the region was entered with. -/
theorem flushed_eq (c : Dev nD) (t : Fin cfg0.N) :
    (dat0 V c).flushed 9 t = ((cfg0.win 9).blk t).view.read (Elt Ideal)
      (hidden2 (V c main_v18) (V c main_v37) (V c main_arg1) (V c main_arg6) (V c main_arg7) (V c main_arg12) (V c main_arg13) (V c main_v57) (V c main_v58)) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e50, e51, e60, e61, e70, e71, e80, e81, e90, e91⟩ := idx_facts t
  refine funext fun (y : S2000x256.Idx) => ?_
  obtain ⟨r, j, rfl⟩ : ∃ (r : Fin 2000) (j : Fin 256), y = ix2 r j := ⟨y 0, y 1, eq_ix2 y⟩
  refine (pay0_apply (iblk0 V c 0 t) (iblk0 V c 1 t) (iblk0 V c 2 t) (iblk0 V c 3 t) (iblk0 V c 4 t) (iblk0 V c 5 t) (iblk0 V c 6 t) (iblk0 V c 7 t) (iblk0 V c 8 t) r j).trans ?_
  have hout : ((cfg0.win 9).blk t).view.emb (ix2 r j) = ix2 (rowOf t r) j := by
    funext a; apply Fin.ext
    match a with
    | ⟨0, _⟩ => show win0_9.index t (0 : Fin 2) * 2000 + 1 * r.val = t.val * 2000 + r.val; omega
    | ⟨1, _⟩ => show win0_9.index t (1 : Fin 2) * 256 + 1 * j.val = j.val; omega
  have h0 : ∀ k : Fin 128, iblk0 V c 0 t (ix2 r k) = V c main_v18 (ix2 (rowOf t r) k) := fun k => by
    show V c main_v18 (((cfg0.win 0).blk t).view.emb (ix2 r k)) = _
    refine congrArg _ (funext fun a => Fin.ext ?_)
    match a with
    | ⟨0, _⟩ => show win0_0.index t (0 : Fin 2) * 2000 + 1 * r.val = t.val * 2000 + r.val; omega
    | ⟨1, _⟩ => show win0_0.index t (1 : Fin 2) * 128 + 1 * k.val = k.val; omega
  have h1 : ∀ k : Fin 128, iblk0 V c 1 t (ix2 r k) = V c main_v37 (ix2 (rowOf t r) k) := fun k => by
    show V c main_v37 (((cfg0.win 1).blk t).view.emb (ix2 r k)) = _
    refine congrArg _ (funext fun a => Fin.ext ?_)
    match a with
    | ⟨0, _⟩ => show win0_1.index t (0 : Fin 2) * 2000 + 1 * r.val = t.val * 2000 + r.val; omega
    | ⟨1, _⟩ => show win0_1.index t (1 : Fin 2) * 128 + 1 * k.val = k.val; omega
  have h2 : ∀ k : Fin 128, iblk0 V c 2 t (ix2 r k) = V c main_arg1 (ix2 (rowOf t r) k) := fun k => by
    show V c main_arg1 (((cfg0.win 2).blk t).view.emb (ix2 r k)) = _
    refine congrArg _ (funext fun a => Fin.ext ?_)
    match a with
    | ⟨0, _⟩ => show win0_2.index t (0 : Fin 2) * 2000 + 1 * r.val = t.val * 2000 + r.val; omega
    | ⟨1, _⟩ => show win0_2.index t (1 : Fin 2) * 128 + 1 * k.val = k.val; omega
  have h3 : ∀ k : Fin 128, iblk0 V c 3 t (ix2 k j) = V c main_arg6 (ix2 k j) := fun k => by
    show V c main_arg6 (((cfg0.win 3).blk t).view.emb (ix2 k j)) = _
    refine congrArg _ (funext fun a => Fin.ext ?_)
    match a with
    | ⟨0, _⟩ => show win0_3.index t (0 : Fin 2) * 128 + 1 * k.val = k.val; omega
    | ⟨1, _⟩ => show win0_3.index t (1 : Fin 2) * 256 + 1 * j.val = j.val; omega
  have h4 : ∀ k : Fin 128, iblk0 V c 4 t (ix2 k j) = V c main_arg7 (ix2 k j) := fun k => by
    show V c main_arg7 (((cfg0.win 4).blk t).view.emb (ix2 k j)) = _
    refine congrArg _ (funext fun a => Fin.ext ?_)
    match a with
    | ⟨0, _⟩ => show win0_4.index t (0 : Fin 2) * 128 + 1 * k.val = k.val; omega
    | ⟨1, _⟩ => show win0_4.index t (1 : Fin 2) * 256 + 1 * j.val = j.val; omega
  have h5 : ∀ k : Fin 128, iblk0 V c 5 t (ix2 k j) = V c main_arg12 (ix2 k j) := fun k => by
    show V c main_arg12 (((cfg0.win 5).blk t).view.emb (ix2 k j)) = _
    refine congrArg _ (funext fun a => Fin.ext ?_)
    match a with
    | ⟨0, _⟩ => show win0_5.index t (0 : Fin 2) * 128 + 1 * k.val = k.val; omega
    | ⟨1, _⟩ => show win0_5.index t (1 : Fin 2) * 256 + 1 * j.val = j.val; omega
  have h6 : ∀ k : Fin 128, iblk0 V c 6 t (ix2 k j) = V c main_arg13 (ix2 k j) := fun k => by
    show V c main_arg13 (((cfg0.win 6).blk t).view.emb (ix2 k j)) = _
    refine congrArg _ (funext fun a => Fin.ext ?_)
    match a with
    | ⟨0, _⟩ => show win0_6.index t (0 : Fin 2) * 128 + 1 * k.val = k.val; omega
    | ⟨1, _⟩ => show win0_6.index t (1 : Fin 2) * 256 + 1 * j.val = j.val; omega
  have h7 : iblk0 V c 7 t (ix2 (0 : Fin 1) j) = V c main_v57 (ix2 (0 : Fin 1) j) := by
    show V c main_v57 (((cfg0.win 7).blk t).view.emb (ix2 (0 : Fin 1) j)) = _
    refine congrArg _ (funext fun a => Fin.ext ?_)
    match a with
    | ⟨0, _⟩ => show win0_7.index t (0 : Fin 2) * 1 + 1 * 0 = 0; omega
    | ⟨1, _⟩ => show win0_7.index t (1 : Fin 2) * 256 + 1 * j.val = j.val; omega
  have h8 : iblk0 V c 8 t (ix2 (0 : Fin 1) j) = V c main_v58 (ix2 (0 : Fin 1) j) := by
    show V c main_v58 (((cfg0.win 8).blk t).view.emb (ix2 (0 : Fin 1) j)) = _
    refine congrArg _ (funext fun a => Fin.ext ?_)
    match a with
    | ⟨0, _⟩ => show win0_8.index t (0 : Fin 2) * 1 + 1 * 0 = 0; omega
    | ⟨1, _⟩ => show win0_8.index t (1 : Fin 2) * 256 + 1 * j.val = j.val; omega
  have s1 : rc128 (iblk0 V c 0 t) (iblk0 V c 3 t) r j = dot128 (V c main_v18) (V c main_arg6) (rowOf t r) j :=
    Finset.sum_congr rfl fun k _ => congrArg₂ (· * ·) (h0 k) (h3 k)
  have s2 : rc128 (iblk0 V c 2 t) (iblk0 V c 4 t) r j = dot128 (V c main_arg1) (V c main_arg7) (rowOf t r) j :=
    Finset.sum_congr rfl fun k _ => congrArg₂ (· * ·) (h2 k) (h4 k)
  have s3 : rc128 (iblk0 V c 1 t) (iblk0 V c 5 t) r j = dot128 (V c main_v37) (V c main_arg12) (rowOf t r) j :=
    Finset.sum_congr rfl fun k _ => congrArg₂ (· * ·) (h1 k) (h5 k)
  have s4 : rc128 (iblk0 V c 2 t) (iblk0 V c 6 t) r j = dot128 (V c main_arg1) (V c main_arg13) (rowOf t r) j :=
    Finset.sum_congr rfl fun k _ => congrArg₂ (· * ·) (h2 k) (h6 k)
  rw [s1, s2, s3, s4, h7, h8]
  show _ = hidden2 _ _ _ _ _ _ _ _ _ (((cfg0.win 9).blk t).view.emb (ix2 r j))
  rw [hout]
  rfl

/-- Every row of the output lies in the block of the grid point `row / 2000`. -/
theorem cover (i : S100000x256.Idx) :
    ∃ t : Fin cfg0.N, (cfg0.win 9).flush t = true ∧ i ∈ ((cfg0.win 9).blk t).view.set := by
  have hi0 : (i 0).val < 100000 := (i 0).isLt
  have hi1 : (i 1).val < 256 := (i 1).isLt
  have hN : cfg0.N = 50 := N_0
  refine ⟨⟨(i 0).val / 2000, by rw [hN]; omega⟩, flush0_9 _, ?_⟩
  rw [mem_blk]
  obtain ⟨-, -, -, -, -, -, -, -, -, -, -, -, -, -, -, -, -, -, eo0, eo1⟩ := idx_facts ⟨(i 0).val / 2000, by rw [hN]; omega⟩
  intro a
  match a with
  | ⟨0, _⟩ =>
    show win0_9.index ⟨(i 0).val / 2000, _⟩ (0 : Fin 2) * 2000 ≤ (i 0).val ∧ (i 0).val < win0_9.index ⟨(i 0).val / 2000, _⟩ (0 : Fin 2) * 2000 + 2000
    rw [eo0]; show (i 0).val / 2000 * 2000 ≤ (i 0).val ∧ (i 0).val < (i 0).val / 2000 * 2000 + 2000; omega
  | ⟨1, _⟩ =>
    show win0_9.index ⟨(i 0).val / 2000, _⟩ (1 : Fin 2) * 256 ≤ (i 1).val ∧ (i 1).val < win0_9.index ⟨(i 0).val / 2000, _⟩ (1 : Fin 2) * 256 + 256
    rw [eo1]; omega

/-- After the region the output array is `hidden2` of the arrays the region was entered with. -/
theorem final (c : Dev nD) :
    (dat0 V c).arrAt 9 cfg0.N = hidden2 (V c main_v18) (V c main_v37) (V c main_arg1) (V c main_arg6) (V c main_arg7) (V c main_arg12) (V c main_arg13) (V c main_v57) (V c main_v58) :=
  (dat0 V c).arrAt_eq_of_cover 9 _ (fun t _ => flushed_eq V c t) cover

end Cert.KernelIdeal.Region0

end
-- ==== Proof.Region1.lean ====
/-
  Region 1 (first layer, user nodes) as a whole-array function.  The grid has 50 points; point `t` reads rows 2000·t … 2000·t + 1999 of
  the row-tiled node tables, the whole weights and biases, and writes back the same rows of the output.  Entry
  (2000·t + r, j) of what it writes is the body's entry (r, j), whose row-by-column sums read exactly row 2000·t + r of the
  tables; the 50 row ranges cover all 100000 rows, so after the run the output array is `hidden1` of the arrays the region
  was entered with.
-/
import proofs.«150538_j16492674417215_1_alg».proof.Proof.Gen.KernelIdeal.Frame
import proofs.«150538_j16492674417215_1_alg».proof.Proof.Body
import proofs.«150538_j16492674417215_1_alg».proof.Proof.SpecDense
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Spec Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: the row-tiled windows and the output sit at block row `t`, block
    column 0; the weights and biases at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of grid point `t`'s block is row `2000·t + r` of the table. -/
def rowOf (t : Fin cfg1.N) (r : Fin 2000) : Fin 100000 :=
  ⟨t.val * 2000 + r.val, by have ht : t.val < 50 := lt_of_lt_of_eq t.isLt N_1; have := r.isLt; omega⟩

/-- An index of the output array lies in point `t`'s block iff each coordinate lies in the block's range. -/
theorem mem_blk (t : Fin cfg1.N) (i : S100000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v61).slice (win1_5.rect t)).set ↔ _
  rw [View.set_slice_whole, Rect.mem_set_unit]
  exact Iff.rfl

/-- What point `t` writes back is block `t` of `hidden1` of the arrays the region was entered with. -/
theorem flushed_eq (c : Dev nD) (t : Fin cfg1.N) :
    (dat1 V c).flushed 5 t = ((cfg1.win 5).blk t).view.read (Elt Ideal)
      (hidden1 (V c main_v56) (V c main_arg0) (V c main_arg9) (V c main_arg10) (V c main_v60)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e50, e51⟩ := idx_facts t
  refine funext fun (y : S2000x256.Idx) => ?_
  obtain ⟨r, j, rfl⟩ : ∃ (r : Fin 2000) (j : Fin 256), y = ix2 r j := ⟨y 0, y 1, eq_ix2 y⟩
  refine (pay1_apply (iblk1 V c 0 t) (iblk1 V c 1 t) (iblk1 V c 2 t) (iblk1 V c 3 t) (iblk1 V c 4 t) r j).trans ?_
  have hout : ((cfg1.win 5).blk t).view.emb (ix2 r j) = ix2 (rowOf t r) j := by
    funext a; apply Fin.ext
    match a with
    | ⟨0, _⟩ => show win1_5.index t (0 : Fin 2) * 2000 + 1 * r.val = t.val * 2000 + r.val; omega
    | ⟨1, _⟩ => show win1_5.index t (1 : Fin 2) * 256 + 1 * j.val = j.val; omega
  have h0 : ∀ k : Fin 128, iblk1 V c 0 t (ix2 r k) = V c main_v56 (ix2 (rowOf t r) k) := fun k => by
    show V c main_v56 (((cfg1.win 0).blk t).view.emb (ix2 r k)) = _
    refine congrArg _ (funext fun a => Fin.ext ?_)
    match a with
    | ⟨0, _⟩ => show win1_0.index t (0 : Fin 2) * 2000 + 1 * r.val = t.val * 2000 + r.val; omega
    | ⟨1, _⟩ => show win1_0.index t (1 : Fin 2) * 128 + 1 * k.val = k.val; omega
  have h1 : ∀ k : Fin 128, iblk1 V c 1 t (ix2 r k) = V c main_arg0 (ix2 (rowOf t r) k) := fun k => by
    show V c main_arg0 (((cfg1.win 1).blk t).view.emb (ix2 r k)) = _
    refine congrArg _ (funext fun a => Fin.ext ?_)
    match a with
    | ⟨0, _⟩ => show win1_1.index t (0 : Fin 2) * 2000 + 1 * r.val = t.val * 2000 + r.val; omega
    | ⟨1, _⟩ => show win1_1.index t (1 : Fin 2) * 128 + 1 * k.val = k.val; omega
  have h2 : ∀ k : Fin 128, iblk1 V c 2 t (ix2 k j) = V c main_arg9 (ix2 k j) := fun k => by
    show V c main_arg9 (((cfg1.win 2).blk t).view.emb (ix2 k j)) = _
    refine congrArg _ (funext fun a => Fin.ext ?_)
    match a with
    | ⟨0, _⟩ => show win1_2.index t (0 : Fin 2) * 128 + 1 * k.val = k.val; omega
    | ⟨1, _⟩ => show win1_2.index t (1 : Fin 2) * 256 + 1 * j.val = j.val; omega
  have h3 : ∀ k : Fin 128, iblk1 V c 3 t (ix2 k j) = V c main_arg10 (ix2 k j) := fun k => by
    show V c main_arg10 (((cfg1.win 3).blk t).view.emb (ix2 k j)) = _
    refine congrArg _ (funext fun a => Fin.ext ?_)
    match a with
    | ⟨0, _⟩ => show win1_3.index t (0 : Fin 2) * 128 + 1 * k.val = k.val; omega
    | ⟨1, _⟩ => show win1_3.index t (1 : Fin 2) * 256 + 1 * j.val = j.val; omega
  have h4 : iblk1 V c 4 t (ix2 (0 : Fin 1) j) = V c main_v60 (ix2 (0 : Fin 1) j) := by
    show V c main_v60 (((cfg1.win 4).blk t).view.emb (ix2 (0 : Fin 1) j)) = _
    refine congrArg _ (funext fun a => Fin.ext ?_)
    match a with
    | ⟨0, _⟩ => show win1_4.index t (0 : Fin 2) * 1 + 1 * 0 = 0; omega
    | ⟨1, _⟩ => show win1_4.index t (1 : Fin 2) * 256 + 1 * j.val = j.val; omega
  have s1 : rc128 (iblk1 V c 0 t) (iblk1 V c 2 t) r j = dot128 (V c main_v56) (V c main_arg9) (rowOf t r) j :=
    Finset.sum_congr rfl fun k _ => congrArg₂ (· * ·) (h0 k) (h2 k)
  have s2 : rc128 (iblk1 V c 1 t) (iblk1 V c 3 t) r j = dot128 (V c main_arg0) (V c main_arg10) (rowOf t r) j :=
    Finset.sum_congr rfl fun k _ => congrArg₂ (· * ·) (h1 k) (h3 k)
  rw [s1, s2, h4]
  show _ = hidden1 _ _ _ _ _ (((cfg1.win 5).blk t).view.emb (ix2 r j))
  rw [hout]
  rfl

/-- Every row of the output lies in the block of the grid point `row / 2000`. -/
theorem cover (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 50 := N_1
  refine ⟨⟨(i 0).val / 2000, by rw [hN]; omega⟩, flush1_5 _, ?_⟩
  rw [mem_blk]
  obtain ⟨-, -, -, -, -, -, -, -, -, -, eo0, eo1⟩ := idx_facts ⟨(i 0).val / 2000, by rw [hN]; omega⟩
  intro a
  match a with
  | ⟨0, _⟩ =>
    show win1_5.index ⟨(i 0).val / 2000, _⟩ (0 : Fin 2) * 2000 ≤ (i 0).val ∧ (i 0).val < win1_5.index ⟨(i 0).val / 2000, _⟩ (0 : Fin 2) * 2000 + 2000
    rw [eo0]; show (i 0).val / 2000 * 2000 ≤ (i 0).val ∧ (i 0).val < (i 0).val / 2000 * 2000 + 2000; omega
  | ⟨1, _⟩ =>
    show win1_5.index ⟨(i 0).val / 2000, _⟩ (1 : Fin 2) * 256 ≤ (i 1).val ∧ (i 1).val < win1_5.index ⟨(i 0).val / 2000, _⟩ (1 : Fin 2) * 256 + 256
    rw [eo1]; omega

/-- After the region the output array is `hidden1` of the arrays the region was entered with. -/
theorem final (c : Dev nD) :
    (dat1 V c).arrAt 5 cfg1.N = hidden1 (V c main_v56) (V c main_arg0) (V c main_arg9) (V c main_arg10) (V c main_v60) :=
  (dat1 V c).arrAt_eq_of_cover 5 _ (fun t _ => flushed_eq V c t) cover

end Cert.KernelIdeal.Region1

end
-- ==== Proof.Region2.lean ====
/-
  Region 2 (second layer, item nodes) as a whole-array function.  The grid has 50 points; point `t` reads rows 2000·t … 2000·t + 1999 of
  the row-tiled node tables, the whole weights and biases, and writes back the same rows of the output.  Entry
  (2000·t + r, j) of what it writes is the body's entry (r, j), whose row-by-column sums read exactly row 2000·t + r of the
  tables; the 50 row ranges cover all 100000 rows, so after the run the output array is `out2` of the arrays the region
  was entered with.
-/
import proofs.«150538_j16492674417215_1_alg».proof.Proof.Gen.KernelIdeal.Frame
import proofs.«150538_j16492674417215_1_alg».proof.Proof.Body
import proofs.«150538_j16492674417215_1_alg».proof.Proof.SpecDense
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Spec Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: the row-tiled windows and the output sit at block row `t`, block
    column 0; the weights and biases at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row `r` of grid point `t`'s block is row `2000·t + r` of the table. -/
def rowOf (t : Fin cfg2.N) (r : Fin 2000) : Fin 100000 :=
  ⟨t.val * 2000 + r.val, by have ht : t.val < 50 := lt_of_lt_of_eq t.isLt N_2; have := r.isLt; omega⟩

/-- An index of the output array lies in point `t`'s block iff each coordinate lies in the block's range. -/
theorem mem_blk (t : Fin cfg2.N) (i : S100000x256.Idx) :
    i ∈ ((cfg2.win 9).blk t).view.set ↔ ∀ a : Fin 2, win2_9.index t a * S2000x256.size a ≤ (i a).val
      ∧ (i a).val < win2_9.index t a * S2000x256.size a + S2000x256.size a := by
  show i ∈ ((View.whole main_v121).slice (win2_9.rect t)).set ↔ _
  rw [View.set_slice_whole, Rect.mem_set_unit]
  exact Iff.rfl

/-- What point `t` writes back is block `t` of `out2` of the arrays the region was entered with. -/
theorem flushed_eq (c : Dev nD) (t : Fin cfg2.N) :
    (dat2 V c).flushed 9 t = ((cfg2.win 9).blk t).view.read (Elt Ideal)
      (out2 (V c main_v80) (V c main_v99) (V c main_v59) (V c main_arg15) (V c main_arg16) (V c main_arg21) (V c main_arg22) (V c main_v119) (V c main_v120)) := by
  show (cfg2.win 9).cut (grid2.coords t) ((dat2 V c).after 9 t) = _
  rw [after2_9]
  unfold out2_9
  rw [View.canon_unit_zero hz]
  simp only [View.ld_unit_zero (S := S2000x256) hz, View.ld_unit_zero (S := S256x256) hz, View.ld_unit_zero (S := S1x256) hz]
  obtain ⟨e00, e01, e10, e11, e20, e21, e30, e31, e40, e41, e50, e51, e60, e61, e70, e71, e80, e81, e90, e91⟩ := idx_facts t
  refine funext fun (y : S2000x256.Idx) => ?_
  obtain ⟨r, j, rfl⟩ : ∃ (r : Fin 2000) (j : Fin 256), y = ix2 r j := ⟨y 0, y 1, eq_ix2 y⟩
  refine (pay2_apply (iblk2 V c 0 t) (iblk2 V c 1 t) (iblk2 V c 2 t) (iblk2 V c 3 t) (iblk2 V c 4 t) (iblk2 V c 5 t) (iblk2 V c 6 t) (iblk2 V c 7 t) (iblk2 V c 8 t) r j).trans ?_
  have hout : ((cfg2.win 9).blk t).view.emb (ix2 r j) = ix2 (rowOf t r) j := by
    funext a; apply Fin.ext
    match a with
    | ⟨0, _⟩ => show win2_9.index t (0 : Fin 2) * 2000 + 1 * r.val = t.val * 2000 + r.val; omega
    | ⟨1, _⟩ => show win2_9.index t (1 : Fin 2) * 256 + 1 * j.val = j.val; omega
  have h0 : ∀ k : Fin 256, iblk2 V c 0 t (ix2 r k) = V c main_v80 (ix2 (rowOf t r) k) := fun k => by
    show V c main_v80 (((cfg2.win 0).blk t).view.emb (ix2 r k)) = _
    refine congrArg _ (funext fun a => Fin.ext ?_)
    match a with
    | ⟨0, _⟩ => show win2_0.index t (0 : Fin 2) * 2000 + 1 * r.val = t.val * 2000 + r.val; omega
    | ⟨1, _⟩ => show win2_0.index t (1 : Fin 2) * 256 + 1 * k.val = k.val; omega
  have h1 : ∀ k : Fin 256, iblk2 V c 1 t (ix2 r k) = V c main_v99 (ix2 (rowOf t r) k) := fun k => by
    show V c main_v99 (((cfg2.win 1).blk t).view.emb (ix2 r k)) = _
    refine congrArg _ (funext fun a => Fin.ext ?_)
    match a with
    | ⟨0, _⟩ => show win2_1.index t (0 : Fin 2) * 2000 + 1 * r.val = t.val * 2000 + r.val; omega
    | ⟨1, _⟩ => show win2_1.index t (1 : Fin 2) * 256 + 1 * k.val = k.val; omega
  have h2 : ∀ k : Fin 256, iblk2 V c 2 t (ix2 r k) = V c main_v59 (ix2 (rowOf t r) k) := fun k => by
    show V c main_v59 (((cfg2.win 2).blk t).view.emb (ix2 r k)) = _
    refine congrArg _ (funext fun a => Fin.ext ?_)
    match a with
    | ⟨0, _⟩ => show win2_2.index t (0 : Fin 2) * 2000 + 1 * r.val = t.val * 2000 + r.val; omega
    | ⟨1, _⟩ => show win2_2.index t (1 : Fin 2) * 256 + 1 * k.val = k.val; omega
  have h3 : ∀ k : Fin 256, iblk2 V c 3 t (ix2 k j) = V c main_arg15 (ix2 k j) := fun k => by
    show V c main_arg15 (((cfg2.win 3).blk t).view.emb (ix2 k j)) = _
    refine congrArg _ (funext fun a => Fin.ext ?_)
    match a with
    | ⟨0, _⟩ => show win2_3.index t (0 : Fin 2) * 256 + 1 * k.val = k.val; omega
    | ⟨1, _⟩ => show win2_3.index t (1 : Fin 2) * 256 + 1 * j.val = j.val; omega
  have h4 : ∀ k : Fin 256, iblk2 V c 4 t (ix2 k j) = V c main_arg16 (ix2 k j) := fun k => by
    show V c main_arg16 (((cfg2.win 4).blk t).view.emb (ix2 k j)) = _
    refine congrArg _ (funext fun a => Fin.ext ?_)
    match a with
    | ⟨0, _⟩ => show win2_4.index t (0 : Fin 2) * 256 + 1 * k.val = k.val; omega
    | ⟨1, _⟩ => show win2_4.index t (1 : Fin 2) * 256 + 1 * j.val = j.val; omega
  have h5 : ∀ k : Fin 256, iblk2 V c 5 t (ix2 k j) = V c main_arg21 (ix2 k j) := fun k => by
    show V c main_arg21 (((cfg2.win 5).blk t).view.emb (ix2 k j)) = _
    refine congrArg _ (funext fun a => Fin.ext ?_)
    match a with
    | ⟨0, _⟩ => show win2_5.index t (0 : Fin 2) * 256 + 1 * k.val = k.val; omega
    | ⟨1, _⟩ => show win2_5.index t (1 : Fin 2) * 256 + 1 * j.val = j.val; omega
  have h6 : ∀ k : Fin 256, iblk2 V c 6 t (ix2 k j) = V c main_arg22 (ix2 k j) := fun k => by
    show V c main_arg22 (((cfg2.win 6).blk t).view.emb (ix2 k j)) = _
    refine congrArg _ (funext fun a => Fin.ext ?_)
    match a with
    | ⟨0, _⟩ => show win2_6.index t (0 : Fin 2) * 256 + 1 * k.val = k.val; omega
    | ⟨1, _⟩ => show win2_6.index t (1 : Fin 2) * 256 + 1 * j.val = j.val; omega
  have h7 : iblk2 V c 7 t (ix2 (0 : Fin 1) j) = V c main_v119 (ix2 (0 : Fin 1) j) := by
    show V c main_v119 (((cfg2.win 7).blk t).view.emb (ix2 (0 : Fin 1) j)) = _
    refine congrArg _ (funext fun a => Fin.ext ?_)
    match a with
    | ⟨0, _⟩ => show win2_7.index t (0 : Fin 2) * 1 + 1 * 0 = 0; omega
    | ⟨1, _⟩ => show win2_7.index t (1 : Fin 2) * 256 + 1 * j.val = j.val; omega
  have h8 : iblk2 V c 8 t (ix2 (0 : Fin 1) j) = V c main_v120 (ix2 (0 : Fin 1) j) := by
    show V c main_v120 (((cfg2.win 8).blk t).view.emb (ix2 (0 : Fin 1) j)) = _
    refine congrArg _ (funext fun a => Fin.ext ?_)
    match a with
    | ⟨0, _⟩ => show win2_8.index t (0 : Fin 2) * 1 + 1 * 0 = 0; omega
    | ⟨1, _⟩ => show win2_8.index t (1 : Fin 2) * 256 + 1 * j.val = j.val; omega
  have s1 : rc256 (iblk2 V c 0 t) (iblk2 V c 3 t) r j = dot256 (V c main_v80) (V c main_arg15) (rowOf t r) j :=
    Finset.sum_congr rfl fun k _ => congrArg₂ (· * ·) (h0 k) (h3 k)
  have s2 : rc256 (iblk2 V c 2 t) (iblk2 V c 4 t) r j = dot256 (V c main_v59) (V c main_arg16) (rowOf t r) j :=
    Finset.sum_congr rfl fun k _ => congrArg₂ (· * ·) (h2 k) (h4 k)
  have s3 : rc256 (iblk2 V c 1 t) (iblk2 V c 5 t) r j = dot256 (V c main_v99) (V c main_arg21) (rowOf t r) j :=
    Finset.sum_congr rfl fun k _ => congrArg₂ (· * ·) (h1 k) (h5 k)
  have s4 : rc256 (iblk2 V c 2 t) (iblk2 V c 6 t) r j = dot256 (V c main_v59) (V c main_arg22) (rowOf t r) j :=
    Finset.sum_congr rfl fun k _ => congrArg₂ (· * ·) (h2 k) (h6 k)
  rw [s1, s2, s3, s4, h7, h8]
  show _ = out2 _ _ _ _ _ _ _ _ _ (((cfg2.win 9).blk t).view.emb (ix2 r j))
  rw [hout]
  rfl

/-- Every row of the output lies in the block of the grid point `row / 2000`. -/
theorem cover (i : S100000x256.Idx) :
    ∃ t : Fin cfg2.N, (cfg2.win 9).flush t = true ∧ i ∈ ((cfg2.win 9).blk t).view.set := by
  have hi0 : (i 0).val < 100000 := (i 0).isLt
  have hi1 : (i 1).val < 256 := (i 1).isLt
  have hN : cfg2.N = 50 := N_2
  refine ⟨⟨(i 0).val / 2000, by rw [hN]; omega⟩, flush2_9 _, ?_⟩
  rw [mem_blk]
  obtain ⟨-, -, -, -, -, -, -, -, -, -, -, -, -, -, -, -, -, -, eo0, eo1⟩ := idx_facts ⟨(i 0).val / 2000, by rw [hN]; omega⟩
  intro a
  match a with
  | ⟨0, _⟩ =>
    show win2_9.index ⟨(i 0).val / 2000, _⟩ (0 : Fin 2) * 2000 ≤ (i 0).val ∧ (i 0).val < win2_9.index ⟨(i 0).val / 2000, _⟩ (0 : Fin 2) * 2000 + 2000
    rw [eo0]; show (i 0).val / 2000 * 2000 ≤ (i 0).val ∧ (i 0).val < (i 0).val / 2000 * 2000 + 2000; omega
  | ⟨1, _⟩ =>
    show win2_9.index ⟨(i 0).val / 2000, _⟩ (1 : Fin 2) * 256 ≤ (i 1).val ∧ (i 1).val < win2_9.index ⟨(i 0).val / 2000, _⟩ (1 : Fin 2) * 256 + 256
    rw [eo1]; omega

/-- After the region the output array is `out2` of the arrays the region was entered with. -/
theorem final (c : Dev nD) :
    (dat2 V c).arrAt 9 cfg2.N = out2 (V c main_v80) (V c main_v99) (V c main_v59) (V c main_arg15) (V c main_arg16) (V c main_arg21) (V c main_arg22) (V c main_v119) (V c main_v120) :=
  (dat2 V c).arrAt_eq_of_cover 9 _ (fun t _ => flushed_eq V c t) cover

end Cert.KernelIdeal.Region2

end
-- ==== Proof.Region3.lean ====
/-
  Region 3 (second layer, user nodes) as a whole-array function.  The grid has 50 points; point `t` reads rows 2000·t … 2000·t + 1999 of
  the row-tiled node tables, the whole weights and biases, and writes back the same rows of the output.  Entry
  (2000·t + r, j) of what it writes is the body's entry (r, j), whose row-by-column sums read exactly row 2000·t + r of the
  tables; the 50 row ranges cover all 100000 rows, so after the run the output array is `out1` of the arrays the region
  was entered with.
-/
import proofs.«150538_j16492674417215_1_alg».proof.Proof.Gen.KernelIdeal.Frame
import proofs.«150538_j16492674417215_1_alg».proof.Proof.Body
import proofs.«150538_j16492674417215_1_alg».proof.Proof.SpecDense
import Idealize.ShloMosaic.Lib.Pipeline.Value

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Spec Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: the row-tiled windows and the output sit at block row `t`, block
    column 0; the weights and biases at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `r` of grid point `t`'s block is row `2000·t + r` of the table. -/
def rowOf (t : Fin cfg3.N) (r : Fin 2000) : Fin 100000 :=
  ⟨t.val * 2000 + r.val, by have ht : t.val < 50 := lt_of_lt_of_eq t.isLt N_3; have := r.isLt; omega⟩

/-- An index of the output array lies in point `t`'s block iff each coordinate lies in the block's range. -/
theorem mem_blk (t : Fin cfg3.N) (i : S100000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v123).slice (win3_5.rect t)).set ↔ _
  rw [View.set_slice_whole, Rect.mem_set_unit]
  exact Iff.rfl

/-- What point `t` writes back is block `t` of `out1` of the arrays the region was entered with. -/
theorem flushed_eq (c : Dev nD) (t : Fin cfg3.N) :
    (dat3 V c).flushed 5 t = ((cfg3.win 5).blk t).view.read (Elt Ideal)
      (out1 (V c main_v118) (V c main_v61) (V c main_arg18) (V c main_arg19) (V c main_v122)) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz]
  obtain ⟨e00, e01, e10, e11, e20, e21, e30, e31, e40, e41, e50, e51⟩ := idx_facts t
  refine funext fun (y : S2000x256.Idx) => ?_
  obtain ⟨r, j, rfl⟩ : ∃ (r : Fin 2000) (j : Fin 256), y = ix2 r j := ⟨y 0, y 1, eq_ix2 y⟩
  refine (pay3_apply (iblk3 V c 0 t) (iblk3 V c 1 t) (iblk3 V c 2 t) (iblk3 V c 3 t) (iblk3 V c 4 t) r j).trans ?_
  have hout : ((cfg3.win 5).blk t).view.emb (ix2 r j) = ix2 (rowOf t r) j := by
    funext a; apply Fin.ext
    match a with
    | ⟨0, _⟩ => show win3_5.index t (0 : Fin 2) * 2000 + 1 * r.val = t.val * 2000 + r.val; omega
    | ⟨1, _⟩ => show win3_5.index t (1 : Fin 2) * 256 + 1 * j.val = j.val; omega
  have h0 : ∀ k : Fin 256, iblk3 V c 0 t (ix2 r k) = V c main_v118 (ix2 (rowOf t r) k) := fun k => by
    show V c main_v118 (((cfg3.win 0).blk t).view.emb (ix2 r k)) = _
    refine congrArg _ (funext fun a => Fin.ext ?_)
    match a with
    | ⟨0, _⟩ => show win3_0.index t (0 : Fin 2) * 2000 + 1 * r.val = t.val * 2000 + r.val; omega
    | ⟨1, _⟩ => show win3_0.index t (1 : Fin 2) * 256 + 1 * k.val = k.val; omega
  have h1 : ∀ k : Fin 256, iblk3 V c 1 t (ix2 r k) = V c main_v61 (ix2 (rowOf t r) k) := fun k => by
    show V c main_v61 (((cfg3.win 1).blk t).view.emb (ix2 r k)) = _
    refine congrArg _ (funext fun a => Fin.ext ?_)
    match a with
    | ⟨0, _⟩ => show win3_1.index t (0 : Fin 2) * 2000 + 1 * r.val = t.val * 2000 + r.val; omega
    | ⟨1, _⟩ => show win3_1.index t (1 : Fin 2) * 256 + 1 * k.val = k.val; omega
  have h2 : ∀ k : Fin 256, iblk3 V c 2 t (ix2 k j) = V c main_arg18 (ix2 k j) := fun k => by
    show V c main_arg18 (((cfg3.win 2).blk t).view.emb (ix2 k j)) = _
    refine congrArg _ (funext fun a => Fin.ext ?_)
    match a with
    | ⟨0, _⟩ => show win3_2.index t (0 : Fin 2) * 256 + 1 * k.val = k.val; omega
    | ⟨1, _⟩ => show win3_2.index t (1 : Fin 2) * 256 + 1 * j.val = j.val; omega
  have h3 : ∀ k : Fin 256, iblk3 V c 3 t (ix2 k j) = V c main_arg19 (ix2 k j) := fun k => by
    show V c main_arg19 (((cfg3.win 3).blk t).view.emb (ix2 k j)) = _
    refine congrArg _ (funext fun a => Fin.ext ?_)
    match a with
    | ⟨0, _⟩ => show win3_3.index t (0 : Fin 2) * 256 + 1 * k.val = k.val; omega
    | ⟨1, _⟩ => show win3_3.index t (1 : Fin 2) * 256 + 1 * j.val = j.val; omega
  have h4 : iblk3 V c 4 t (ix2 (0 : Fin 1) j) = V c main_v122 (ix2 (0 : Fin 1) j) := by
    show V c main_v122 (((cfg3.win 4).blk t).view.emb (ix2 (0 : Fin 1) j)) = _
    refine congrArg _ (funext fun a => Fin.ext ?_)
    match a with
    | ⟨0, _⟩ => show win3_4.index t (0 : Fin 2) * 1 + 1 * 0 = 0; omega
    | ⟨1, _⟩ => show win3_4.index t (1 : Fin 2) * 256 + 1 * j.val = j.val; omega
  have s1 : rc256 (iblk3 V c 0 t) (iblk3 V c 2 t) r j = dot256 (V c main_v118) (V c main_arg18) (rowOf t r) j :=
    Finset.sum_congr rfl fun k _ => congrArg₂ (· * ·) (h0 k) (h2 k)
  have s2 : rc256 (iblk3 V c 1 t) (iblk3 V c 3 t) r j = dot256 (V c main_v61) (V c main_arg19) (rowOf t r) j :=
    Finset.sum_congr rfl fun k _ => congrArg₂ (· * ·) (h1 k) (h3 k)
  rw [s1, s2, h4]
  show _ = out1 _ _ _ _ _ (((cfg3.win 5).blk t).view.emb (ix2 r j))
  rw [hout]
  rfl

/-- Every row of the output lies in the block of the grid point `row / 2000`. -/
theorem cover (i : S100000x256.Idx) :
    ∃ t : Fin cfg3.N, (cfg3.win 5).flush t = true ∧ i ∈ ((cfg3.win 5).blk t).view.set := by
  have hi0 : (i 0).val < 100000 := (i 0).isLt
  have hi1 : (i 1).val < 256 := (i 1).isLt
  have hN : cfg3.N = 50 := N_3
  refine ⟨⟨(i 0).val / 2000, by rw [hN]; omega⟩, flush3_5 _, ?_⟩
  rw [mem_blk]
  obtain ⟨-, -, -, -, -, -, -, -, -, -, eo0, eo1⟩ := idx_facts ⟨(i 0).val / 2000, by rw [hN]; omega⟩
  intro a
  match a with
  | ⟨0, _⟩ =>
    show win3_5.index ⟨(i 0).val / 2000, _⟩ (0 : Fin 2) * 2000 ≤ (i 0).val ∧ (i 0).val < win3_5.index ⟨(i 0).val / 2000, _⟩ (0 : Fin 2) * 2000 + 2000
    rw [eo0]; show (i 0).val / 2000 * 2000 ≤ (i 0).val ∧ (i 0).val < (i 0).val / 2000 * 2000 + 2000; omega
  | ⟨1, _⟩ =>
    show win3_5.index ⟨(i 0).val / 2000, _⟩ (1 : Fin 2) * 256 ≤ (i 1).val ∧ (i 1).val < win3_5.index ⟨(i 0).val / 2000, _⟩ (1 : Fin 2) * 256 + 256
    rw [eo1]; omega

/-- After the region the output array is `out1` of the arrays the region was entered with. -/
theorem final (c : Dev nD) :
    (dat3 V c).arrAt 5 cfg3.N = out1 (V c main_v118) (V c main_v61) (V c main_arg18) (V c main_arg19) (V c main_v122) :=
  (dat3 V c).arrAt_eq_of_cover 5 _ (fun t _ => flushed_eq V c t) cover

end Cert.KernelIdeal.Region3

end
-- ==== Proof.KernelValue.lean ====
/-
  The kernel's program, read end to end.  At each region's entry the row-tiled operands are neighbour means of earlier
  tables, the weights are the arguments, and the biases are the arguments as one-row matrices; each region leaves its
  layer function of those.  Chaining the four regions: the two hidden tables are `hidden2` and `hidden1` of the
  arguments' neighbour means, and the two results are `out1` and `out2` of the hidden tables' neighbour means.
-/
import proofs.«150538_j16492674417215_1_alg».proof.Proof.RunW8
import proofs.«150538_j16492674417215_1_alg».proof.Proof.Walk
import proofs.«150538_j16492674417215_1_alg».proof.Proof.Region0
import proofs.«150538_j16492674417215_1_alg».proof.Proof.Region1
import proofs.«150538_j16492674417215_1_alg».proof.Proof.Region2
import proofs.«150538_j16492674417215_1_alg».proof.Proof.Region3

set_option maxRecDepth 16384

noncomputable section

namespace Cert.KernelIdeal.KValue

open Idealize.ShloMosaic Idealize.ShloMosaic.TcCoe Idealize.SL.Sem
open Cert.KernelIdeal Cert.KernelIdeal.Gen Cert.KernelIdeal.Spec

variable (m : (ℓ : Loc nD τ sig) → Buf (Elt Ideal) ℓ) (ρ : Dev nD → PrngReg) (c : Dev nD)

/-- The hidden table of the node type with two incoming edge types, from the arguments. -/
def hItemS : (⟨S100000x256, .f32⟩ : BufTy).Contents (Elt Ideal) :=
  hidden2 (mean128 (m ((c : Thread nD τ).loc main_arg0)) (m ((c : Thread nD τ).loc main_arg2)) (m ((c : Thread nD τ).loc main_arg3))) (mean128 (m ((c : Thread nD τ).loc main_arg1)) (m ((c : Thread nD τ).loc main_arg4)) (m ((c : Thread nD τ).loc main_arg5))) (m ((c : Thread nD τ).loc main_arg1))
    (m ((c : Thread nD τ).loc main_arg6)) (m ((c : Thread nD τ).loc main_arg7)) (m ((c : Thread nD τ).loc main_arg12)) (m ((c : Thread nD τ).loc main_arg13)) (row (m ((c : Thread nD τ).loc main_arg8))) (row (m ((c : Thread nD τ).loc main_arg14)))

/-- The hidden table of the node type with one incoming edge type, from the arguments. -/
def hUserS : (⟨S100000x256, .f32⟩ : BufTy).Contents (Elt Ideal) :=
  hidden1 (mean128 (m ((c : Thread nD τ).loc main_arg1)) (m ((c : Thread nD τ).loc main_arg3)) (m ((c : Thread nD τ).loc main_arg2))) (m ((c : Thread nD τ).loc main_arg0)) (m ((c : Thread nD τ).loc main_arg9)) (m ((c : Thread nD τ).loc main_arg10)) (row (m ((c : Thread nD τ).loc main_arg11)))

/-- The first result: the second layer for the node type with one incoming edge type. -/
def oUserS : (⟨S100000x256, .f32⟩ : BufTy).Contents (Elt Ideal) :=
  out1 (mean256 (hItemS m c) (m ((c : Thread nD τ).loc main_arg3)) (m ((c : Thread nD τ).loc main_arg2))) (hUserS m c) (m ((c : Thread nD τ).loc main_arg18)) (m ((c : Thread nD τ).loc main_arg19)) (row (m ((c : Thread nD τ).loc main_arg20)))

/-- The second result: the second layer for the node type with two incoming edge types. -/
def oItemS : (⟨S100000x256, .f32⟩ : BufTy).Contents (Elt Ideal) :=
  out2 (mean256 (hUserS m c) (m ((c : Thread nD τ).loc main_arg2)) (m ((c : Thread nD τ).loc main_arg3))) (mean256 (hItemS m c) (m ((c : Thread nD τ).loc main_arg4)) (m ((c : Thread nD τ).loc main_arg5))) (hItemS m c)
    (m ((c : Thread nD τ).loc main_arg15)) (m ((c : Thread nD τ).loc main_arg16)) (m ((c : Thread nD τ).loc main_arg21)) (m ((c : Thread nD τ).loc main_arg22)) (row (m ((c : Thread nD τ).loc main_arg17))) (row (m ((c : Thread nD τ).loc main_arg23)))

/-- Region 0 leaves the first hidden table. -/
theorem hItem_eq : Walk.hItem m ρ c = hItemS m c := by
  refine (Region0.final (V1 m ρ) c).trans ?_
  rw [Walk.V1_v18 m ρ c, Walk.V1_v37 m ρ c, Walk.V1_arg1 m ρ c, Walk.V1_arg6 m ρ c, Walk.V1_arg7 m ρ c,
    Walk.V1_arg12 m ρ c, Walk.V1_arg13 m ρ c, Walk.V1_v57 m ρ c, Walk.V1_v58 m ρ c]
  rfl

/-- Region 1 leaves the second hidden table. -/
theorem hUser_eq : Walk.hUser m ρ c = hUserS m c := by
  refine (Region1.final (V3 m ρ) c).trans ?_
  rw [Walk.V3_v56 m ρ c, Walk.V3_arg0 m ρ c, Walk.V3_arg9 m ρ c, Walk.V3_arg10 m ρ c, Walk.V3_v60 m ρ c]
  rfl

/-- Region 2 leaves the second result. -/
theorem oItem_eq : Walk.oItem m ρ c = oItemS m c := by
  refine (Region2.final (V5 m ρ) c).trans ?_
  rw [Walk.V5_v80 m ρ c, Walk.V5_v99 m ρ c, Walk.V5_v59 m ρ c, Walk.V5_arg15 m ρ c, Walk.V5_arg16 m ρ c,
    Walk.V5_arg21 m ρ c, Walk.V5_arg22 m ρ c, Walk.V5_v119 m ρ c, Walk.V5_v120 m ρ c, hItem_eq m ρ c, hUser_eq m ρ c]
  rfl

/-- Region 3 leaves the first result. -/
theorem oUser_eq : (dat3 (V7 m ρ) c).arrAt 5 cfg3.N = oUserS m c := by
  refine (Region3.final (V7 m ρ) c).trans ?_
  rw [Walk.V7_v118 m ρ c, Walk.V7_v61 m ρ c, Walk.V7_arg18 m ρ c, Walk.V7_arg19 m ρ c, Walk.V7_v122 m ρ c,
    hItem_eq m ρ c, hUser_eq m ρ c]
  rfl

/-- Every weakly fair execution of the kernel's program ends with the two results at their functions of the arguments
    and the arguments unchanged. -/
theorem run : θ_run defs (onTc (τ := τ) (main (F := Ideal))) ⟨m, fun _ => 0, ρ⟩ (fun r => ∀ c : Dev nD,
      r.2.mem ((c.tc : Thread nD τ).loc main_v123) = oUserS m c
      ∧ r.2.mem ((c.tc : Thread nD τ).loc main_v121) = oItemS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c _ HandRun.mem_v123).trans ((Walk.W8_v123 m ρ c).trans (oUser_eq m ρ c)),
      (h c _ HandRun.mem_v121).trans ((Walk.W8_v121 m ρ c).trans (oItem_eq m ρ c)),
      (h c _ (Gen.mem_uc main_arg0 (by decide))).trans (Gen.W8_main_arg0 m ρ c),
      (h c _ (Gen.mem_uc main_arg1 (by decide))).trans (Gen.W8_main_arg1 m ρ c),
      (h c _ (Gen.mem_uc main_arg2 (by decide))).trans (Gen.W8_main_arg2 m ρ c),
      (h c _ (Gen.mem_uc main_arg3 (by decide))).trans (Gen.W8_main_arg3 m ρ c),
      (h c _ (Gen.mem_uc main_arg4 (by decide))).trans (Gen.W8_main_arg4 m ρ c),
      (h c _ (Gen.mem_uc main_arg5 (by decide))).trans (Gen.W8_main_arg5 m ρ c),
      (h c _ (Gen.mem_uc main_arg6 (by decide))).trans (Gen.W8_main_arg6 m ρ c),
      (h c _ (Gen.mem_uc main_arg7 (by decide))).trans (Gen.W8_main_arg7 m ρ c),
      (h c _ (Gen.mem_uc main_arg8 (by decide))).trans (Gen.W8_main_arg8 m ρ c),
      (h c _ (Gen.mem_uc main_arg9 (by decide))).trans (Gen.W8_main_arg9 m ρ c),
      (h c _ (Gen.mem_uc main_arg10 (by decide))).trans (Gen.W8_main_arg10 m ρ c),
      (h c _ (Gen.mem_uc main_arg11 (by decide))).trans (Gen.W8_main_arg11 m ρ c),
      (h c _ (Gen.mem_uc main_arg12 (by decide))).trans (Gen.W8_main_arg12 m ρ c),
      (h c _ (Gen.mem_uc main_arg13 (by decide))).trans (Gen.W8_main_arg13 m ρ c),
      (h c _ (Gen.mem_uc main_arg14 (by decide))).trans (Gen.W8_main_arg14 m ρ c),
      (h c _ (Gen.mem_uc main_arg15 (by decide))).trans (Gen.W8_main_arg15 m ρ c),
      (h c _ (Gen.mem_uc main_arg16 (by decide))).trans (Gen.W8_main_arg16 m ρ c),
      (h c _ (Gen.mem_uc main_arg17 (by decide))).trans (Gen.W8_main_arg17 m ρ c),
      (h c _ (Gen.mem_uc main_arg18 (by decide))).trans (Gen.W8_main_arg18 m ρ c),
      (h c _ (Gen.mem_uc main_arg19 (by decide))).trans (Gen.W8_main_arg19 m ρ c),
      (h c _ (Gen.mem_uc main_arg20 (by decide))).trans (Gen.W8_main_arg20 m ρ c),
      (h c _ (Gen.mem_uc main_arg21 (by decide))).trans (Gen.W8_main_arg21 m ρ c),
      (h c _ (Gen.mem_uc main_arg22 (by decide))).trans (Gen.W8_main_arg22 m ρ c),
      (h c _ (Gen.mem_uc main_arg23 (by decide))).trans (Gen.W8_main_arg23 m ρ c)⟩)
    (HandRun.run_W8 m ρ)

end Cert.KernelIdeal.KValue

end
-- ==== Proof.LibDotGeneral.lean ====
/-
  A plain M × K by K × N host matrix product (`dot_general` contracting the left operand's second axis with the right
  operand's first), read at one entry: at the exact (extended real) values the entry (a, b) is the sum over the contracted
  coordinate c of A (a, c) · B (c, b), whatever schedule the host uses.
-/
import Idealize.ShloMosaic.Lib.ValueIdx
import Idealize.ShloMosaic.PureOps.Ideal.Laws

noncomputable section

open scoped BigOperators

namespace Cert.LibDotGeneral

open Idealize.ShloMosaic Idealize.ShloMosaic.ValueIdx

/-- The host product of an `M × K` by a `K × N` matrix, at entry `(a, b)`, is `∑ c, A (a, c) · B (c, b)` over the
    extended reals. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) := by
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibDotGeneral

end
-- ==== Proof.RefValue.lean ====
/-
  The reference, read as the same whole-array functions.  Its program is a chain of host operations: per edge type a
  neighbour mean, a product with the neighbour weight plus the bias, a product of the nodes' own features with the root
  weight; the edge types into one node type are added, and the first layer ends in the maximum with zero.  Entry by entry
  a host product is the sum of products over the shared coordinate and a bias spread over the rows reads its entry `j`,
  so each layer is `hidden2` / `hidden1` / `out2` / `out1` of its operands once the six (or three) summands are
  reordered — addition of extended reals is commutative and associative, so no finiteness is needed.
-/
import proofs.«150538_j16492674417215_1_alg».proof.Proof.Gen.ReferenceIdeal.Read
import proofs.«150538_j16492674417215_1_alg».proof.Proof.SpecHost
import proofs.«150538_j16492674417215_1_alg».proof.Proof.SpecDense
import proofs.«150538_j16492674417215_1_alg».proof.Proof.LibDotGeneral
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value

/-- The reference's neighbour mean over 128 features is the one the kernel's program applies. -/
theorem mean128_eq (x : FVec Ideal S100000x128 .f32) (src dst : (⟨S500000, .i32⟩ : BufTy).Contents (Elt Ideal)) :
    (Host.divf
    (Host.scatterAdd scatter_S100000x128_S500000x1_S500000x128_1_0_0_1
      (broadcastInDim S100000x128 ![] bcast_S_S100000x128 (constant (F := Ideal) S_ .f32 0x00000000#32))
      (broadcastInDim S500000x1 ![0] bcast_S500000_S500000x1_0 dst)
      (Host.gather gather_S100000x128_S500000x1_S500000x128_1_0_n_n_0_1_1128 x
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S500000x1_S500000_n_0_0_1
            (broadcastInDim S100000 ![] bcast_S_S100000 (constant (F := Ideal) S_ .f32 0x00000000#32))
            (broadcastInDim S500000x1 ![0] bcast_S500000_S500000x1_0 dst)
            (broadcastInDim S500000 ![] bcast_S_S500000 (constant (F := Ideal) S_ .f32 0x3F800000#32)))
          (broadcastInDim S100000 ![] bcast_S_S100000 (constant (F := Ideal) S_ .f32 0x3F800000#32)))))) = Cert.KernelIdeal.Spec.mean128 x src dst := rfl

/-- The reference's neighbour mean over 256 features is the one the kernel's program applies. -/
theorem mean256_eq (x : FVec Ideal S100000x256 .f32) (src dst : (⟨S500000, .i32⟩ : BufTy).Contents (Elt Ideal)) :
    (Host.divf
    (Host.scatterAdd scatter_S100000x256_S500000x1_S500000x256_1_0_0_1
      (broadcastInDim S100000x256 ![] bcast_S_S100000x256 (constant (F := Ideal) S_ .f32 0x00000000#32))
      (broadcastInDim S500000x1 ![0] bcast_S500000_S500000x1_0 dst)
      (Host.gather gather_S100000x256_S500000x1_S500000x256_1_0_n_n_0_1_1256 x
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 100000#32))) src))))
    (broadcastInDim S100000x256 ![0, 1] bcast_S100000x1_S100000x256_0_1
      (broadcastInDim S100000x1 ![0] bcast_S100000_S100000x1_0
        (maximumf
          (Host.scatterAdd scatter_S100000_S500000x1_S500000_n_0_0_1
            (broadcastInDim S100000 ![] bcast_S_S100000 (constant (F := Ideal) S_ .f32 0x00000000#32))
            (broadcastInDim S500000x1 ![0] bcast_S500000_S500000x1_0 dst)
            (broadcastInDim S500000 ![] bcast_S_S500000 (constant (F := Ideal) S_ .f32 0x3F800000#32)))
          (broadcastInDim S100000 ![] bcast_S_S100000 (constant (F := Ideal) S_ .f32 0x3F800000#32)))))) = Cert.KernelIdeal.Spec.mean256 x src dst := rfl

/-- A host product of a 100000 × 128 table with a 128 × 256 weight, at (a, j). -/
theorem hostDot128 (A : FVec Ideal S100000x128 .f32) (B : FVec Ideal S128x256 .f32) (a : Fin 100000) (j : Fin 256) :
    Host.dotGeneral dot_S100000x128_S128x256_S100000x256_1_0_0_1_n_n none A B (ix2 a j) = Cert.KernelIdeal.Spec.dot128 A B a j := by
  simp only [Host.dotGeneral]
  exact Cert.LibDotGeneral.dotGeneral_plain_apply (M := 100000) (K := 128) (N := 256) none _ A B a j

/-- A host product of a 100000 × 256 table with a 256 × 256 weight, at (a, j). -/
theorem hostDot256 (A : FVec Ideal S100000x256 .f32) (B : FVec Ideal S256x256 .f32) (a : Fin 100000) (j : Fin 256) :
    Host.dotGeneral dot_S100000x256_S256x256_S100000x256_1_0_0_1_n_n none A B (ix2 a j) = Cert.KernelIdeal.Spec.dot256 A B a j := by
  simp only [Host.dotGeneral]
  exact Cert.LibDotGeneral.dotGeneral_plain_apply (M := 100000) (K := 256) (N := 256) none _ A B a j

/-- A bias spread over the 100000 rows reads its entry `j`: the entry (0, j) of the bias as a one-row matrix. -/
theorem bias_read (b : FVec Ideal S256 .f32) (a : Fin 100000) (j : Fin 256) :
    (broadcastInDim S100000x256 ![0, 1] bcast_S1x256_S100000x256_0_1 (broadcastInDim S1x256 ![1] bcast_S256_S1x256_1 b)) (ix2 a j) = Cert.KernelIdeal.Spec.row (F := Ideal) b (ix2 (0 : Fin 1) j) := by
  refine ((Read.val_main_v21_apply (F := Ideal) b (ix2 a j)).trans
    (Read.val_main_v20_apply (F := Ideal) b (Read.idx_main_v21 (ix2 a j)))).trans ?_
  unfold Cert.KernelIdeal.Spec.row
  rw [shapeCast_a_1a_apply]
  exact congrArg b (funext fun d => match d with | ⟨0, _⟩ => rfl)

/-- The zero table reads zero. -/
theorem zeros_read (i : S100000x256.Idx) : (broadcastInDim S100000x256 ![] bcast_S_S100000x256 (constant (F := Ideal) S_ .f32 0x00000000#32)) i = (0 : EReal) :=
  ((Read.val_main_call0_v0_apply (F := Ideal) i).trans (Read.val_main_call0_cst_apply (F := Ideal) _)).trans
    Ideal.ofBits_zero_f32

/-- First layer, two edge types into one node type. -/
theorem hidden2_eq (mA mB x : FVec Ideal S100000x128 .f32) (WlA WrA WlB WrB : FVec Ideal S128x256 .f32)
    (bA bB : FVec Ideal S256 .f32) :
    maximumf (addf (addf (addf (Host.dotGeneral dot_S100000x128_S128x256_S100000x256_1_0_0_1_n_n none mA WlA) (broadcastInDim S100000x256 ![0, 1] bcast_S1x256_S100000x256_0_1 (broadcastInDim S1x256 ![1] bcast_S256_S1x256_1 bA))) (Host.dotGeneral dot_S100000x128_S128x256_S100000x256_1_0_0_1_n_n none x WrA))
        (addf (addf (Host.dotGeneral dot_S100000x128_S128x256_S100000x256_1_0_0_1_n_n none mB WlB) (broadcastInDim S100000x256 ![0, 1] bcast_S1x256_S100000x256_0_1 (broadcastInDim S1x256 ![1] bcast_S256_S1x256_1 bB))) (Host.dotGeneral dot_S100000x128_S128x256_S100000x256_1_0_0_1_n_n none x WrB))) (broadcastInDim S100000x256 ![] bcast_S_S100000x256 (constant (F := Ideal) S_ .f32 0x00000000#32))
      = Cert.KernelIdeal.Spec.hidden2 mA mB x WlA WrA WlB WrB (Cert.KernelIdeal.Spec.row (F := Ideal) bA) (Cert.KernelIdeal.Spec.row (F := Ideal) bB) := by
  refine funext fun (i : S100000x256.Idx) => ?_
  obtain ⟨a, j, rfl⟩ : ∃ (a : Fin 100000) (j : Fin 256), i = ix2 a j := ⟨i 0, i 1, eq_ix2 i⟩
  rw [maximumf_apply, addf_apply, addf_apply, addf_apply, addf_apply, addf_apply, hostDot128, hostDot128, hostDot128,
    hostDot128, bias_read, bias_read, zeros_read]
  show _ = max (Cert.KernelIdeal.Spec.two128At mA mB x WlA WrA WlB WrB (Cert.KernelIdeal.Spec.row (F := Ideal) bA) (Cert.KernelIdeal.Spec.row (F := Ideal) bB) a j) 0
  unfold Cert.KernelIdeal.Spec.two128At
  congr 1
  ac_rfl

/-- First layer, one edge type into a node type. -/
theorem hidden1_eq (mn x : FVec Ideal S100000x128 .f32) (Wl Wr : FVec Ideal S128x256 .f32) (b : FVec Ideal S256 .f32) :
    maximumf (addf (addf (Host.dotGeneral dot_S100000x128_S128x256_S100000x256_1_0_0_1_n_n none mn Wl) (broadcastInDim S100000x256 ![0, 1] bcast_S1x256_S100000x256_0_1 (broadcastInDim S1x256 ![1] bcast_S256_S1x256_1 b))) (Host.dotGeneral dot_S100000x128_S128x256_S100000x256_1_0_0_1_n_n none x Wr)) (broadcastInDim S100000x256 ![] bcast_S_S100000x256 (constant (F := Ideal) S_ .f32 0x00000000#32))
      = Cert.KernelIdeal.Spec.hidden1 mn x Wl Wr (Cert.KernelIdeal.Spec.row (F := Ideal) b) := by
  refine funext fun (i : S100000x256.Idx) => ?_
  obtain ⟨a, j, rfl⟩ : ∃ (a : Fin 100000) (j : Fin 256), i = ix2 a j := ⟨i 0, i 1, eq_ix2 i⟩
  rw [maximumf_apply, addf_apply, addf_apply, hostDot128, hostDot128, bias_read, zeros_read]
  show _ = max (Cert.KernelIdeal.Spec.one128At mn x Wl Wr (Cert.KernelIdeal.Spec.row (F := Ideal) b) a j) 0
  unfold Cert.KernelIdeal.Spec.one128At
  congr 1
  ac_rfl

/-- Second layer, two edge types into one node type. -/
theorem out2_eq (mA mB x : FVec Ideal S100000x256 .f32) (WlA WrA WlB WrB : FVec Ideal S256x256 .f32)
    (bA bB : FVec Ideal S256 .f32) :
    addf (addf (addf (Host.dotGeneral dot_S100000x256_S256x256_S100000x256_1_0_0_1_n_n none mA WlA) (broadcastInDim S100000x256 ![0, 1] bcast_S1x256_S100000x256_0_1 (broadcastInDim S1x256 ![1] bcast_S256_S1x256_1 bA))) (Host.dotGeneral dot_S100000x256_S256x256_S100000x256_1_0_0_1_n_n none x WrA))
        (addf (addf (Host.dotGeneral dot_S100000x256_S256x256_S100000x256_1_0_0_1_n_n none mB WlB) (broadcastInDim S100000x256 ![0, 1] bcast_S1x256_S100000x256_0_1 (broadcastInDim S1x256 ![1] bcast_S256_S1x256_1 bB))) (Host.dotGeneral dot_S100000x256_S256x256_S100000x256_1_0_0_1_n_n none x WrB))
      = Cert.KernelIdeal.Spec.out2 mA mB x WlA WrA WlB WrB (Cert.KernelIdeal.Spec.row (F := Ideal) bA) (Cert.KernelIdeal.Spec.row (F := Ideal) bB) := by
  refine funext fun (i : S100000x256.Idx) => ?_
  obtain ⟨a, j, rfl⟩ : ∃ (a : Fin 100000) (j : Fin 256), i = ix2 a j := ⟨i 0, i 1, eq_ix2 i⟩
  rw [addf_apply, addf_apply, addf_apply, addf_apply, addf_apply, hostDot256, hostDot256, hostDot256, hostDot256,
    bias_read, bias_read]
  show _ = Cert.KernelIdeal.Spec.two256At mA mB x WlA WrA WlB WrB (Cert.KernelIdeal.Spec.row (F := Ideal) bA) (Cert.KernelIdeal.Spec.row (F := Ideal) bB) a j
  unfold Cert.KernelIdeal.Spec.two256At
  ac_rfl

/-- Second layer, one edge type into a node type. -/
theorem out1_eq (mn x : FVec Ideal S100000x256 .f32) (Wl Wr : FVec Ideal S256x256 .f32) (b : FVec Ideal S256 .f32) :
    addf (addf (Host.dotGeneral dot_S100000x256_S256x256_S100000x256_1_0_0_1_n_n none mn Wl) (broadcastInDim S100000x256 ![0, 1] bcast_S1x256_S100000x256_0_1 (broadcastInDim S1x256 ![1] bcast_S256_S1x256_1 b))) (Host.dotGeneral dot_S100000x256_S256x256_S100000x256_1_0_0_1_n_n none x Wr)
      = Cert.KernelIdeal.Spec.out1 mn x Wl Wr (Cert.KernelIdeal.Spec.row (F := Ideal) b) := by
  refine funext fun (i : S100000x256.Idx) => ?_
  obtain ⟨a, j, rfl⟩ : ∃ (a : Fin 100000) (j : Fin 256), i = ix2 a j := ⟨i 0, i 1, eq_ix2 i⟩
  rw [addf_apply, addf_apply, hostDot256, hostDot256, bias_read]
  show _ = Cert.KernelIdeal.Spec.one256At mn x Wl Wr (Cert.KernelIdeal.Spec.row (F := Ideal) b) a j
  unfold Cert.KernelIdeal.Spec.one256At
  ac_rfl

variable (m : (ℓ : Loc nD τ sig) → Buf (Elt Ideal) ℓ) (c : Dev nD)

/-- The hidden table of the node type with two incoming edge types, from the arguments. -/
def hItem : FVec Ideal S100000x256 .f32 :=
  Cert.KernelIdeal.Spec.hidden2 (Cert.KernelIdeal.Spec.mean128 (m ((c.tc : Thread nD τ).loc main_arg0)) (m ((c.tc : Thread nD τ).loc main_arg2)) (m ((c.tc : Thread nD τ).loc main_arg3))) (Cert.KernelIdeal.Spec.mean128 (m ((c.tc : Thread nD τ).loc main_arg1)) (m ((c.tc : Thread nD τ).loc main_arg4)) (m ((c.tc : Thread nD τ).loc main_arg5))) (m ((c.tc : Thread nD τ).loc main_arg1))
    (m ((c.tc : Thread nD τ).loc main_arg6)) (m ((c.tc : Thread nD τ).loc main_arg7)) (m ((c.tc : Thread nD τ).loc main_arg12)) (m ((c.tc : Thread nD τ).loc main_arg13)) (Cert.KernelIdeal.Spec.row (F := Ideal) (m ((c.tc : Thread nD τ).loc main_arg8))) (Cert.KernelIdeal.Spec.row (F := Ideal) (m ((c.tc : Thread nD τ).loc main_arg14)))

/-- The hidden table of the node type with one incoming edge type, from the arguments. -/
def hUser : FVec Ideal S100000x256 .f32 :=
  Cert.KernelIdeal.Spec.hidden1 (Cert.KernelIdeal.Spec.mean128 (m ((c.tc : Thread nD τ).loc main_arg1)) (m ((c.tc : Thread nD τ).loc main_arg3)) (m ((c.tc : Thread nD τ).loc main_arg2))) (m ((c.tc : Thread nD τ).loc main_arg0)) (m ((c.tc : Thread nD τ).loc main_arg9)) (m ((c.tc : Thread nD τ).loc main_arg10)) (Cert.KernelIdeal.Spec.row (F := Ideal) (m ((c.tc : Thread nD τ).loc main_arg11)))

/-- The reference's first result: the second layer for the node type with one incoming edge type. -/
theorem res0_eq : res_main_v153 (F := Ideal) m c
    = Cert.KernelIdeal.Spec.out1 (Cert.KernelIdeal.Spec.mean256 (hItem m c) (m ((c.tc : Thread nD τ).loc main_arg3)) (m ((c.tc : Thread nD τ).loc main_arg2))) (hUser m c) (m ((c.tc : Thread nD τ).loc main_arg18)) (m ((c.tc : Thread nD τ).loc main_arg19)) (Cert.KernelIdeal.Spec.row (F := Ideal) (m ((c.tc : Thread nD τ).loc main_arg20))) := by
  unfold res_main_v153
  refine (out1_eq _ _ _ _ _).trans ?_
  exact congrArg₂ (fun a b => Cert.KernelIdeal.Spec.out1 a b (m ((c.tc : Thread nD τ).loc main_arg18)) (m ((c.tc : Thread nD τ).loc main_arg19)) (Cert.KernelIdeal.Spec.row (F := Ideal) (m ((c.tc : Thread nD τ).loc main_arg20))))
    (congrArg (fun t => Cert.KernelIdeal.Spec.mean256 t (m ((c.tc : Thread nD τ).loc main_arg3)) (m ((c.tc : Thread nD τ).loc main_arg2))) (hidden2_eq _ _ _ _ _ _ _ _ _ : _ = hItem m c))
    (hidden1_eq _ _ _ _ _ : _ = hUser m c)

/-- `out2` of equal tables is equal. -/
theorem out2_congr {a a' b b' x x' : FVec Ideal S100000x256 .f32} (ha : a = a') (hb : b = b') (hx : x = x')
    (W1 W2 W3 W4 : FVec Ideal S256x256 .f32) (r1 r2 : FVec Ideal S1x256 .f32) :
    Cert.KernelIdeal.Spec.out2 a b x W1 W2 W3 W4 r1 r2 = Cert.KernelIdeal.Spec.out2 a' b' x' W1 W2 W3 W4 r1 r2 := by
  subst ha hb hx; rfl

set_option maxRecDepth 200000 in
/-- The reference's second result: the second layer for the node type with two incoming edge types. -/
theorem res1_eq : res_main_v128 (F := Ideal) m c
    = Cert.KernelIdeal.Spec.out2 (Cert.KernelIdeal.Spec.mean256 (hUser m c) (m ((c.tc : Thread nD τ).loc main_arg2)) (m ((c.tc : Thread nD τ).loc main_arg3))) (Cert.KernelIdeal.Spec.mean256 (hItem m c) (m ((c.tc : Thread nD τ).loc main_arg4)) (m ((c.tc : Thread nD τ).loc main_arg5))) (hItem m c)
        (m ((c.tc : Thread nD τ).loc main_arg15)) (m ((c.tc : Thread nD τ).loc main_arg16)) (m ((c.tc : Thread nD τ).loc main_arg21)) (m ((c.tc : Thread nD τ).loc main_arg22)) (Cert.KernelIdeal.Spec.row (F := Ideal) (m ((c.tc : Thread nD τ).loc main_arg17))) (Cert.KernelIdeal.Spec.row (F := Ideal) (m ((c.tc : Thread nD τ).loc main_arg23))) := by
  unfold res_main_v128
  refine (out2_eq _ _ _ _ _ _ _ _ _).trans ?_
  have hU := (hidden1_eq (Cert.KernelIdeal.Spec.mean128 (m ((c.tc : Thread nD τ).loc main_arg1)) (m ((c.tc : Thread nD τ).loc main_arg3)) (m ((c.tc : Thread nD τ).loc main_arg2))) (m ((c.tc : Thread nD τ).loc main_arg0)) (m ((c.tc : Thread nD τ).loc main_arg9)) (m ((c.tc : Thread nD τ).loc main_arg10)) (m ((c.tc : Thread nD τ).loc main_arg11)))
  have hI := (hidden2_eq (Cert.KernelIdeal.Spec.mean128 (m ((c.tc : Thread nD τ).loc main_arg0)) (m ((c.tc : Thread nD τ).loc main_arg2)) (m ((c.tc : Thread nD τ).loc main_arg3))) (Cert.KernelIdeal.Spec.mean128 (m ((c.tc : Thread nD τ).loc main_arg1)) (m ((c.tc : Thread nD τ).loc main_arg4)) (m ((c.tc : Thread nD τ).loc main_arg5))) (m ((c.tc : Thread nD τ).loc main_arg1))
    (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg8)) (m ((c.tc : Thread nD τ).loc main_arg14)))
  exact out2_congr (congrArg (fun t => Cert.KernelIdeal.Spec.mean256 t (m ((c.tc : Thread nD τ).loc main_arg2)) (m ((c.tc : Thread nD τ).loc main_arg3))) hU)
    (congrArg (fun t => Cert.KernelIdeal.Spec.mean256 t (m ((c.tc : Thread nD τ).loc main_arg4)) (m ((c.tc : Thread nD τ).loc main_arg5))) hI) hI _ _ _ _ _ _

end Cert.ReferenceIdeal.RefValue

end
-- ==== Proof.lean ====
/-
  A two-layer graph network over two node types (users, items) and three edge types.  Per layer and edge type a node
  receives the mean of its neighbours' feature rows (zero for a node without neighbours: the sum is divided by
  `max count 1`), multiplied by a neighbour weight, plus a bias, plus its own features multiplied by a root weight; the
  edge types arriving at one node type are added, and the first layer ends in the maximum with zero.

  The kernel's program computes the neighbour means on the host and the dense part in four tiled matrix kernels (2000
  rows per grid point, bf16 operands accumulated in f32); the reference computes everything on the host in f32.  Over the
  extended reals a change of float format is the identity and both kinds of matrix product are plain sums of products, so
  each tiled kernel writes, row range by row range, exactly the layer function of the arrays it was entered with.  The
  two programs then differ only in the order in which a layer's six (or three) summands are added, and addition of
  extended reals is commutative and associative: the results agree for every input, finite or not, and whatever the edge
  lists contain, because both programs apply one and the same neighbour-mean function to them.

  The ideal pass rewrote nothing in the kernel, so the idealization conjunct is trivial; the three frame conjuncts are the
  generated frames (for the reference, its run with the results dropped).
-/
import proofs.«150538_j16492674417215_1_alg».proof.Defs
import proofs.«150538_j16492674417215_1_alg».proof.Proof.Gen.Kernel
import proofs.«150538_j16492674417215_1_alg».proof.Proof.Gen.Kernel.Skeleton
import proofs.«150538_j16492674417215_1_alg».proof.Proof.Gen.Kernel.Launch
import proofs.«150538_j16492674417215_1_alg».proof.Proof.Gen.Kernel.Points
import proofs.«150538_j16492674417215_1_alg».proof.Proof.Gen.Kernel.Frame
import proofs.«150538_j16492674417215_1_alg».proof.Proof.Gen.KernelIdeal
import proofs.«150538_j16492674417215_1_alg».proof.Proof.Gen.KernelIdeal.Skeleton
import proofs.«150538_j16492674417215_1_alg».proof.Proof.Gen.KernelIdeal.Launch
import proofs.«150538_j16492674417215_1_alg».proof.Proof.Gen.KernelIdeal.Points
import proofs.«150538_j16492674417215_1_alg».proof.Proof.Gen.KernelIdeal.Frame
import proofs.«150538_j16492674417215_1_alg».proof.Proof.Gen.ReferenceIdeal
import proofs.«150538_j16492674417215_1_alg».proof.Proof.Gen.ReferenceIdeal.Run
import proofs.«150538_j16492674417215_1_alg».proof.Proof.Gen.ReferenceIdeal.Read
import proofs.«150538_j16492674417215_1_alg».proof.Proof.Gen.Pre_finite_inputs
import proofs.«150538_j16492674417215_1_alg».proof.Proof.KernelValue
import proofs.«150538_j16492674417215_1_alg».proof.Proof.RefValue
import Idealize.ShloMosaic.Adequacy
import Idealize.ShloMosaic.Init

set_option maxRecDepth 16384

noncomputable section

namespace Cert.Proof

open Idealize.ShloMosaic Idealize.SL.Sem

/-- The kernel's program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both programs end with the same two tables: the second layer's output for
    the node type with one incoming edge type, and for the node type with two. -/
theorem algebraic : Cert.algebraic_KernelIdeal_ReferenceIdeal := by
  intro m ρ m' ρ' _ hagree
  refine ⟨fun c => Cert.KernelIdeal.KValue.oUserS m c, fun c => Cert.KernelIdeal.KValue.oItemS m c,
    Cert.KernelIdeal.KValue.run m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13, e14, e15, e16, e17, e18, e19, e20, e21, e22, e23⟩ := hagree c
  refine ⟨(h c).1.trans ?_, (h c).2.1.trans ?_, (h c).2.2⟩
  · rw [Cert.ReferenceIdeal.RefValue.res0_eq]
    unfold Cert.ReferenceIdeal.RefValue.hItem Cert.ReferenceIdeal.RefValue.hUser
    simp only [e0, e1, e2, e3, e4, e5, e6, e7, e8, e9, e10, e11, e12, e13, e14, e15, e16, e17, e18, e19, e20, e21, e22, e23]
    rfl
  · rw [Cert.ReferenceIdeal.RefValue.res1_eq]
    unfold Cert.ReferenceIdeal.RefValue.hItem Cert.ReferenceIdeal.RefValue.hUser
    simp only [e0, e1, e2, e3, e4, e5, e6, e7, e8, e9, e10, e11, e12, e13, e14, e15, e16, e17, e18, e19, e20, e21, e22, e23]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
